-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S1x10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S1x10000x10000 : Shape := ⟨3, ![1, 10000, 10000]⟩
abbrev S128x128 : Shape := ⟨2, ![128, 128]⟩
abbrev S128 : Shape := ⟨1, ![128]⟩
abbrev S10000x10000 : Shape := ⟨2, ![10000, 10000]⟩
abbrev S1x128 : Shape := ⟨2, ![1, 128]⟩
abbrev S512x10000 : Shape := ⟨2, ![512, 10000]⟩
abbrev S512x128 : Shape := ⟨2, ![512, 128]⟩
abbrev S10240x128 : Shape := ⟨2, ![10240, 128]⟩

abbrev nBuf : Space → Nat
  | .hbm => 10
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x10000, .f32⟩
  | .hbm, ⟨7, _⟩ => ⟨S1x128, .f32⟩
  | .hbm, ⟨8, _⟩ => ⟨S1x128, .f32⟩
  | .hbm, ⟨9, _⟩ => ⟨S10000x128, .f32⟩
  | .local _ .vmem, ⟨0, _⟩ => ⟨S10000x128, .f32⟩
  | .local _ .vmem, ⟨1, _⟩ => ⟨S512x10000, .f32⟩
  | .local _ .vmem, ⟨2, _⟩ => ⟨S512x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S10000x128, .f32⟩
  | .local _ .vmem, ⟨10, _⟩ => ⟨S10240x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![20], ![false]⟩

def k0_off1 (i : grid0.Coords) : Fin 2 → Nat :=
  let arg0 : BitVec 32 := BitVec.ofNat 32 (i 0).val
  let c512_i32 : BitVec 32 := 512#32
  let v7 : BitVec 32 := Scalar.muli arg0 c512_i32
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x10000x10000_S10000x10000 : S1x10000x10000.ShapeCasts S10000x10000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S10240x128_S10000x128_0_0 : ∀ a, (![0, 0] : Fin 2 → Nat) a + S10000x128.size a ≤ S10240x128.size a
  inb_S512x10000_S512x10000_0_0 : ∀ a, (![0, 0] : Fin 2 → Nat) a + S512x10000.size a ≤ S512x10000.size a
  h_S512x10000 : 0 < S512x10000.numel
  shapeCasts_S512x10000_S512x10000 : S512x10000.ShapeCasts S512x10000
  h_S512x128 : 0 < S512x128.numel
  inb_S512x128_S512x128_0_0 : ∀ a, (![0, 0] : Fin 2 → Nat) a + S512x128.size a ≤ S512x128.size a
  dot_S10000x128_S128x128_S10000x128_1_0_0_1_n_n_wf : DotDims.WF S10000x128 S128x128 S10000x128 [1] [0] [0] [1] [] []
  dot_S512x10000_S10000x128_S512x128_1_0_0_1_n_n_wf : DotDims.WF S512x10000 S10000x128 S512x128 [1] [0] [0] [1] [] []
  hrank0 : 0 < grid0.rank
  k0_off1_inb : ∀ i : grid0.Coords, ∀ a, (k0_off1 i) a + S512x128.size a ≤ S10240x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x10000.size a < S10000x10000.size a
  hwx0_1 : ∀ i : grid0.Coords, EltTy.bits .f32 = 32 ∨ (Rect.unit (s := S10000x10000) (fun a => cc0_transform_1 i a * S512x10000.size a) (fun a => (Pipeline.Clip.of (cc0_transform_1 i a) (S512x10000.size a) (S10000x10000.size a)).extent (S512x10000.size a)) fun a => Pipeline.Clip.inb (Pipeline.Clip.ok_of (hstart0_1 i a))).WholeWords (EltTy.packing .f32)
  hwxs0_1 : ∀ i : grid0.Coords, EltTy.bits .f32 = 32 ∨ (Rect.unit (s := S512x10000) (fun _ => 0) (fun a => (Pipeline.Clip.of (cc0_transform_1 i a) (S512x10000.size a) (S10000x10000.size a)).extent (S512x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S512x128.size a < S10000x128.size a
  hwx0_6 : ∀ i : grid0.Coords, EltTy.bits .f32 = 32 ∨ (Rect.unit (s := S10000x128) (fun a => cc0_transform_6 i a * S512x128.size a) (fun a => (Pipeline.Clip.of (cc0_transform_6 i a) (S512x128.size a) (S10000x128.size a)).extent (S512x128.size a)) fun a => Pipeline.Clip.inb (Pipeline.Clip.ok_of (hstart0_6 i a))).WholeWords (EltTy.packing .f32)
  hwxs0_6 : ∀ i : grid0.Coords, EltTy.bits .f32 = 32 ∨ (Rect.unit (s := S512x128) (fun _ => 0) (fun a => (Pipeline.Clip.of (cc0_transform_6 i a) (S512x128.size a) (S10000x128.size a)).extent (S512x128.size a)) fun a => (Nat.zero_add _).trans_le (Pipeline.Clip.extent_le (Pipeline.Clip.ok_of (hstart0_6 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S512x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v3) S512x128.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S1x10000x10000 : Shape := ⟨3, ![1, 10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000x10000 : Shape := ⟨2, ![10000, 10000]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S10000x10000, .f32⟩
  | .hbm, ⟨23, _⟩ => ⟨S10000x128, .f32⟩
  | .hbm, ⟨24, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  shapeCasts_S1x10000x10000_S10000x10000 : S1x10000x10000.ShapeCasts S10000x10000
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsRuns.lean ====
/-
  The kernel body run once per control case, on whole staging and scratch memrefs at named contents.

  The body has two cases, by the grid coordinate: at the first point it first fills the two scratch
  arrays — the dense layer h = x·W0 + b0 and the gate sigmoid(x·Wg + bg) on the first 10000 rows of
  a 10240-row scratch — and at every point it multiplies the current 512-row strip of the adjacency
  by h and scales it, entry by entry, by the 512 gate rows of the strip. Each run states what
  every buffer holds afterwards as the list of stores the body made into it.
-/
import proofs.«100890_g63015760167423_cont_sun_m_150_20_alg».proof.Proof.Gen.Kernel.Frame
import proofs.«100890_g63015760167423_cont_sun_m_150_20_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's one branch, from the grid coordinate: "this is strip 0". -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- Each window's current staging memref at point `t`, and that it is a whole buffer. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x128 .f32 := win0_6.stage (cfg0.slots t 6)
abbrev hs6 (t : Fin cfg0.N) : (ms6 t).IsWhole := hstage0_6 ((cfg0.slots t 6).cast nbuf0_6)
/-- The two scratch arrays: h (10000 rows) and the gate (10240 rows, the grid's row span). -/
abbrev scH : Memref sig .tc .vmem S10000x128 .f32 := Memref.whole cc0_scratch0
abbrev scG : Memref sig .tc .vmem S10240x128 .f32 := Memref.whole cc0_scratch1

/-- The class invariant with the two scratch arrays as memrefs owned at some contents. -/
theorem PhiA_eq (c : Dev nD) :
    (Pipeline.ΦA spec0 c : sProp 𝕄)
      = iprop(iprop((∃ d, owns (c : Thread nD τ) scH fullShare d) ∗ (∃ d, owns (c : Thread nD τ) scG fullShare d)) ∗ (∃ r, prngReg c r)) := by
  unfold Pipeline.ΦA; rw [scopedRest0_eq]; simp only [scH, scG, owns_whole]; try rfl

set_option maxHeartbeats 1000000 in
/-- A LATER STRIP (the branch not taken): the strip's buffer at `x1`, the scratch arrays at `xs0` (h) and
    `xs1` (the gate); the body stores one whole block into the result's buffer and leaves everything else. -/
noncomputable def runLater (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : ¬cond0 i)
    (x1 : Vec F S512x10000 .f32) (xs0 : Vec F S10000x128 .f32) (xs1 : Vec F S10240x128 .f32) :
    { L7 : List (View.Piece (Elt F) S512x128 .f32) //
      ∀ (x0 : Vec F S10000x128 .f32) (x2 : Vec F S128x128 .f32) (x3 : Vec F S1x128 .f32) (x4 : Vec F S128x128 .f32) (x5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7)
                ∗ owns (c : Thread nD τ) arg8 fullShare xs0 ∗ owns (c : Thread nD τ) arg9 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun x0 x2 x3 x4 x5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf8; obtain rfl := harg9.eq_unread hf9
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H8]
    · iexists _; isplitr; · ipureintro; exact harg8.read_unread _
      iexact H8
    · iexists _; isplitr; · ipureintro; exact harg9.read_unread _
      iexact H9

set_option maxHeartbeats 2000000 in
/-- THE FIRST STRIP (the branch taken): every input's buffer at its contents, the scratch arrays at any contents
    `xs0`, `xs1`; the body stores h over the whole of the first scratch, the gate over the first 10000 rows of the
    second (its last 240 rows keep `xs1`'s), then the strip's block into the result's buffer. -/
noncomputable def runFirst (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : cond0 i)
    (x0 : Vec F S10000x128 .f32) (x1 : Vec F S512x10000 .f32) (x2 : Vec F S128x128 .f32) (x3 : Vec F S1x128 .f32) (x4 : Vec F S128x128 .f32) (x5 : Vec F S1x128 .f32)
    (xs0 : Vec F S10000x128 .f32) (xs1 : Vec F S10240x128 .f32) :
    Σ' (L7 : List (View.Piece (Elt F) S512x128 .f32)) (LS0 : List (View.Piece (Elt F) S10000x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS0)
                ∗ (∃ f, ⌜arg9.view.read (Elt F) f = xs1⌝ ∗ arg9.view.loc (c : Thread nD τ) ↦[arg9.view.set]{fullShare} arg9.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf8; obtain rfl := harg9.eq_unread hf9
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H8]
    · iexists _; iexact H8
    · iexists _; isplitr; · ipureintro; exact harg9.read_unread _
      iexact H9

end Cert.Kernel.Body

end
-- ==== Proof.BitsFrame.lean ====
/-
  The frame of the kernel as printed: it runs to the end, faults nowhere and leaves its six argument
  arrays as they were.

  Nothing here depends on what the kernel computes. At every strip the body only loads from buffers it
  owns and stores whole rectangles into the result's staging buffer and into its own scratch arrays,
  all inside their bounds; the argument arrays are read by the pipeline's fetches alone. So the proof
  data constrain nothing: whatever a staging buffer holds when the body is called, the body runs, and
  it hands every buffer back at some contents. The scratch arrays stay in the region's invariant at
  contents nobody names.
-/
import proofs.«100890_g63015760167423_cont_sun_m_150_20_alg».proof.Proof.BitsRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref whose buffer holds the raw contents `g` is owned at what `g` reads. -/
theorem owns_read {s : Shape} (c : Dev nD) (M : Memref sig .tc .vmem s .f32) (g : M.view.ty.Contents (Elt F)) :
    (M.view.loc (c : Thread nD τ) ↦[M.view.set]{fullShare} g : sProp 𝕄) ⊢ owns (c : Thread nD τ) M fullShare (M.view.read (Elt F) g) := by
  unfold owns; iintro H; iexists g; isplitr; · ipureintro; rfl
  iexact H

/-- Proof data that name no contents: the arrays as the region finds them; whatever the body leaves in a
    staging buffer is admitted; the invariant is the scratch arrays and the generator register at any state. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem rdat_A (c : Dev nD) (w : Fin cfg0.W) : (rdat m c).A w = V m c (Pipeline.arrRef spec0 w) := by
  dsimp only [rdat]

set_option maxHeartbeats 400000 in
/-- The body at any strip, from buffers at any contents: it runs, and gives every buffer back. -/
theorem sound_body (c : Dev nD) (t : Fin cfg0.N)
    (Y : (w : Fin cfg0.W) → (cfg0.win w).block.Idx → Elt F (cfg0.win w).elt) :
    iprop(Pipeline.ΦA spec0 c ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3)
        ∗ owns (c : Thread nD τ) (ms4 t) fullShare (Y 4) ∗ owns (c : Thread nD τ) (ms5 t) fullShare (Y 5)
        ∗ owns (c : Thread nD τ) (ms6 t) fullShare (Y 6))
      ⊢ wp frame (wpE (defs₀ (F := F)) Variants.none c none) Set.univ (bodyAt0 t) (fun _ =>
          iprop(Pipeline.ΦA spec0 c ∗ (rdat m c).owesAt () t.castSucc
            ∗ (∃ X, ⌜True⌝ ∗ owns (c : Thread nD τ) (ms0 t) fullShare X) ∗ (∃ X, ⌜True⌝ ∗ owns (c : Thread nD τ) (ms1 t) fullShare X)
            ∗ (∃ X, ⌜True⌝ ∗ owns (c : Thread nD τ) (ms2 t) fullShare X) ∗ (∃ X, ⌜True⌝ ∗ owns (c : Thread nD τ) (ms3 t) fullShare X)
            ∗ (∃ X, ⌜True⌝ ∗ owns (c : Thread nD τ) (ms4 t) fullShare X) ∗ (∃ X, ⌜True⌝ ∗ owns (c : Thread nD τ) (ms5 t) fullShare X)
            ∗ (∃ X, ⌜True⌝ ∗ owns (c : Thread nD τ) (ms6 t) fullShare X))) := by
  unfold bodyAt0
  rw [PhiA_eq]
  by_cases h0 : t.val = 0
  · iintro ⟨⟨⟨⟨%d8, HS0⟩, ⟨%d9, HS1⟩⟩, Hg⟩, Ho, H0, H1, H2, H3, H4, H5, H6⟩
    iapply ((runFirst c (grid0.coords t) _ _ _ _ _ _ _ _ _ _ _ _ _ _ _ _ _ _ ((hcond0 t).mpr h0) (Y 0) (Y 1) (Y 2) (Y 3) (Y 4) (Y 5) d8 d9).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f7, H7⟩, ⟨%f8, H8⟩, ⟨%f9, %hf9, H9⟩⟩
    isplitl [H8 H9 Hg]
    · isplitl [H8 H9]
      · isplitl [H8]
        · iexists _; iapply (owns_read c scH _); iexact H8
        · iexists _; iapply (owns_read c scG _); iexact H9
      iexact Hg
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    isplitl [H3]; · iexists _; isplitr; · ipureintro; trivial
                    iexact H3
    isplitl [H4]; · iexists _; isplitr; · ipureintro; trivial
                    iexact H4
    isplitl [H5]; · iexists _; isplitr; · ipureintro; trivial
                    iexact H5
    · iexists _; isplitr; · ipureintro; trivial
      iapply (owns_read c (ms6 t) _); iexact H7
  · iintro ⟨⟨⟨⟨%d8, HS0⟩, ⟨%d9, HS1⟩⟩, Hg⟩, Ho, H0, H1, H2, H3, H4, H5, H6⟩
    iapply ((runLater c (grid0.coords t) _ _ _ _ _ _ _ _ _ _ _ _ _ _ _ _ _ _ (fun h => h0 ((hcond0 t).mp h)) (Y 1) d8 d9).2 (Y 0) (Y 2) (Y 3) (Y 4) (Y 5) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f7, H7⟩, H8, H9⟩
    isplitl [H8 H9 Hg]
    · isplitl [H8 H9]
      · isplitl [H8]
        · iexists _; iexact H8
        · iexists _; iexact H9
      iexact Hg
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    isplitl [H3]; · iexists _; isplitr; · ipureintro; trivial
                    iexact H3
    isplitl [H4]; · iexists _; isplitr; · ipureintro; trivial
                    iexact H4
    isplitl [H5]; · iexists _; isplitr; · ipureintro; trivial
                    iexact H5
    · iexists _; isplitr; · ipureintro; trivial
      iapply (owns_read c (ms6 t) _); iexact H7

/-- The library's body obligation for these data, at every strip. -/
theorem body_obligation (c : Dev nD) : (rdat (F := F) m c).BodyObligation (defs₀ (F := F)) Variants.none () Set.univ := fun t Y _ => by
  rw [bigSep_W0, bigSep_W0]
  exact sound_body m c t Y

set_option backward.isDefEq.respectTransparency.types false in
/-- Every weakly fair execution of @main terminates without a fault; every argument array the pipeline stages is
    never written, and every other unscoped buffer ends as the region found it. -/
theorem run_main : θ_run defs (onTc (τ := τ) (main (F := F))) (s₀ m ρ) (Pipeline.RDat.FramePost (cfgs 0) (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := rdat_A m) (hΦ := fun _ _ => rfl)

/-- The frame claim: x, W0 and Wg are input windows' arrays, which no write-back touches; the adjacency and the two
    bias vectors are read only by the host reshapes before the region and bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (Eq.mp (congrFun ((rdat m c).ArrAt_in 0 rfl _) _) ((h c).1 0)).trans ((rdat_A m c 0).trans (V_main_arg0 m c)),
      ((h c).2 main_arg1 (Pipeline.mem_restRefs_of main_arg1 (by decide) (by decide))).trans (V_main_arg1 m c),
      (Eq.mp (congrFun ((rdat m c).ArrAt_in 2 rfl _) _) ((h c).1 2)).trans ((rdat_A m c 2).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((rdat_A m c 4).trans (V_main_arg4 m c)),
      ((h c).2 main_arg5 (Pipeline.mem_restRefs_of main_arg5 (by decide) (by decide))).trans (V_main_arg5 m c)⟩)
    (run_main m ρ)

end Cert.Kernel.Body

end
-- ==== Proof.IdealRuns.lean ====
/-
  The kernel body run once per control case, on whole staging and scratch memrefs at named contents.

  The body has two cases, by the grid coordinate: at the first point it first fills the two scratch
  arrays — the dense layer h = x·W0 + b0 and the gate sigmoid(x·Wg + bg) on the first 10000 rows of
  a 10240-row scratch — and at every point it multiplies the current 512-row strip of the adjacency
  by h and scales it, entry by entry, by the 512 gate rows of the strip. Each run states what
  every buffer holds afterwards as the list of stores the body made into it.
-/
import proofs.«100890_g63015760167423_cont_sun_m_150_20_alg».proof.Proof.Gen.KernelIdeal.Frame
import proofs.«100890_g63015760167423_cont_sun_m_150_20_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's one branch, from the grid coordinate: "this is strip 0". -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- Each window's current staging memref at point `t`, and that it is a whole buffer. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x128 .f32 := win0_6.stage (cfg0.slots t 6)
abbrev hs6 (t : Fin cfg0.N) : (ms6 t).IsWhole := hstage0_6 ((cfg0.slots t 6).cast nbuf0_6)
/-- The two scratch arrays: h (10000 rows) and the gate (10240 rows, the grid's row span). -/
abbrev scH : Memref sig .tc .vmem S10000x128 .f32 := Memref.whole cc0_scratch0
abbrev scG : Memref sig .tc .vmem S10240x128 .f32 := Memref.whole cc0_scratch1

/-- The class invariant with the two scratch arrays as memrefs owned at some contents. -/
theorem PhiA_eq (c : Dev nD) :
    (Pipeline.ΦA spec0 c : sProp 𝕄)
      = iprop(iprop((∃ d, owns (c : Thread nD τ) scH fullShare d) ∗ (∃ d, owns (c : Thread nD τ) scG fullShare d)) ∗ (∃ r, prngReg c r)) := by
  unfold Pipeline.ΦA; rw [scopedRest0_eq]; simp only [scH, scG, owns_whole]; try rfl

set_option maxHeartbeats 1000000 in
/-- A LATER STRIP (the branch not taken): the strip's buffer at `x1`, the scratch arrays at `xs0` (h) and
    `xs1` (the gate); the body stores one whole block into the result's buffer and leaves everything else. -/
noncomputable def runLater (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : ¬cond0 i)
    (x1 : Vec F S512x10000 .f32) (xs0 : Vec F S10000x128 .f32) (xs1 : Vec F S10240x128 .f32) :
    { L7 : List (View.Piece (Elt F) S512x128 .f32) //
      ∀ (x0 : Vec F S10000x128 .f32) (x2 : Vec F S128x128 .f32) (x3 : Vec F S1x128 .f32) (x4 : Vec F S128x128 .f32) (x5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7)
                ∗ owns (c : Thread nD τ) arg8 fullShare xs0 ∗ owns (c : Thread nD τ) arg9 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun x0 x2 x3 x4 x5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf8; obtain rfl := harg9.eq_unread hf9
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H8]
    · iexists _; isplitr; · ipureintro; exact harg8.read_unread _
      iexact H8
    · iexists _; isplitr; · ipureintro; exact harg9.read_unread _
      iexact H9

set_option maxHeartbeats 2000000 in
/-- THE FIRST STRIP (the branch taken): every input's buffer at its contents, the scratch arrays at any contents
    `xs0`, `xs1`; the body stores h over the whole of the first scratch, the gate over the first 10000 rows of the
    second (its last 240 rows keep `xs1`'s), then the strip's block into the result's buffer. -/
noncomputable def runFirst (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : cond0 i)
    (x0 : Vec F S10000x128 .f32) (x1 : Vec F S512x10000 .f32) (x2 : Vec F S128x128 .f32) (x3 : Vec F S1x128 .f32) (x4 : Vec F S128x128 .f32) (x5 : Vec F S1x128 .f32)
    (xs0 : Vec F S10000x128 .f32) (xs1 : Vec F S10240x128 .f32) :
    Σ' (L7 : List (View.Piece (Elt F) S512x128 .f32)) (LS0 : List (View.Piece (Elt F) S10000x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS0)
                ∗ (∃ f, ⌜arg9.view.read (Elt F) f = xs1⌝ ∗ arg9.view.loc (c : Thread nD τ) ↦[arg9.view.set]{fullShare} arg9.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf8; obtain rfl := harg9.eq_unread hf9
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H8]
    · iexists _; iexact H8
    · iexists _; isplitr; · ipureintro; exact harg9.read_unread _
      iexact H9

end Cert.KernelIdeal.Body

end
-- ==== Proof.IdealPieces.lean ====
/-
  What the body's stores leave, as arrays.

  Each run of the body (first strip, later strip) found the list of stores made into each buffer. Read
  back, a buffer one store covers whole holds that store's value: the result's staging buffer holds
  gate-rows ⊙ (strip · h); the first scratch holds h. The second scratch is 10240 rows of which the first
  strip's store covers the first 10000: those hold the gate, the last 240 keep what they held.
-/
import proofs.«100890_g63015760167423_cont_sun_m_150_20_alg».proof.Proof.IdealRuns
import Idealize.ShloMosaic.Lib.Pipeline.Value
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zero2 : (![0, 0] : Fin 2 → Nat) = fun _ => 0 := funext fun a => by fin_cases a <;> rfl

/-- The 512 rows of the gate scratch that strip `i` reads: rows 512·i … 512·i + 511, every column. -/
def gateRows (i : grid0.Coords) (X : Vec F S10240x128 .f32) : Vec F S512x128 .f32 :=
  View.ld X (Rect.unit (s := S10240x128) (k0_off1 i) S512x128.size (k0_off1_inb i))

/-! ## A later strip -/

theorem later_cover (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : ¬cond0 i)
    (x1 : Vec F S512x10000 .f32) (xs0 : Vec F S10000x128 .f32) (xs1 : Vec F S10240x128 .f32) (y : S512x128.Idx) :
    ∃ pc ∈ (runLater c i arg1 harg1 arg2 harg2 arg3 harg3 arg4 harg4 arg5 harg5 arg6 harg6 arg7 harg7 arg8 harg8 arg9 harg9 hc x1 xs0 xs1).1, y ∈ pc.1.set :=
  View.cover_of_tiledL (runLater c i arg1 harg1 arg2 harg2 arg3 harg3 arg4 harg4 arg5 harg5 arg6 harg6 arg7 harg7 arg8 harg8 arg9 harg9 hc x1 xs0 xs1).1 S512x128.size (by sl_kernel_rfl) y

/-- After a later strip the result's staging buffer holds the strip's block of the product, gated. -/
theorem later_out (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : ¬cond0 i)
    (x1 : Vec F S512x10000 .f32) (xs0 : Vec F S10000x128 .f32) (xs1 : Vec F S10240x128 .f32) (f : arg7.view.ty.Contents (Elt F)) :
    arg7.view.read (Elt F) (arg7.view.writes (Elt F) f (runLater c i arg1 harg1 arg2 harg2 arg3 harg3 arg4 harg4 arg5 harg5 arg6 harg6 arg7 harg7 arg8 harg8 arg9 harg9 hc x1 xs0 xs1).1) = k0_pay3 x1 xs0 (gateRows i xs1) := by
  rw [View.read_writes_eq_canon _ _ _ (later_cover c i arg1 harg1 arg2 harg2 arg3 harg3 arg4 harg4 arg5 harg5 arg6 harg6 arg7 harg7 arg8 harg8 arg9 harg9 hc x1 xs0 xs1)]
  unfold runLater; dsimp only
  rw [View.canon_unit_zero zero2]
  simp only [View.readAt_eq_ld, harg2.read_unread, harg8.read_unread, harg9.read_unread, View.ld_unit_zero (S := S512x10000) zero2, View.ld_unit_zero (S := S10000x128) zero2]
  rfl

/-! ## The first strip -/

theorem first_h_cover (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : cond0 i)
    (x0 : Vec F S10000x128 .f32) (x1 : Vec F S512x10000 .f32) (x2 : Vec F S128x128 .f32) (x3 : Vec F S1x128 .f32) (x4 : Vec F S128x128 .f32) (x5 : Vec F S1x128 .f32)
    (xs0 : Vec F S10000x128 .f32) (xs1 : Vec F S10240x128 .f32) (y : S10000x128.Idx) :
    ∃ pc ∈ (runFirst c i arg1 harg1 arg2 harg2 arg3 harg3 arg4 harg4 arg5 harg5 arg6 harg6 arg7 harg7 arg8 harg8 arg9 harg9 hc x0 x1 x2 x3 x4 x5 xs0 xs1).2.1, y ∈ pc.1.set :=
  View.cover_of_tiledL (runFirst c i arg1 harg1 arg2 harg2 arg3 harg3 arg4 harg4 arg5 harg5 arg6 harg6 arg7 harg7 arg8 harg8 arg9 harg9 hc x0 x1 x2 x3 x4 x5 xs0 xs1).2.1 S10000x128.size (by sl_kernel_rfl) y

/-- After the first strip the first scratch holds h = x·W0 + b0, whatever it held. -/
theorem first_h (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : cond0 i)
    (x0 : Vec F S10000x128 .f32) (x1 : Vec F S512x10000 .f32) (x2 : Vec F S128x128 .f32) (x3 : Vec F S1x128 .f32) (x4 : Vec F S128x128 .f32) (x5 : Vec F S1x128 .f32)
    (xs0 : Vec F S10000x128 .f32) (xs1 : Vec F S10240x128 .f32) (f : arg8.view.ty.Contents (Elt F)) :
    arg8.view.read (Elt F) (arg8.view.writes (Elt F) f (runFirst c i arg1 harg1 arg2 harg2 arg3 harg3 arg4 harg4 arg5 harg5 arg6 harg6 arg7 harg7 arg8 harg8 arg9 harg9 hc x0 x1 x2 x3 x4 x5 xs0 xs1).2.1) = k0_pay1 x0 x2 x3 := by
  rw [View.read_writes_eq_canon _ _ _ (first_h_cover c i arg1 harg1 arg2 harg2 arg3 harg3 arg4 harg4 arg5 harg5 arg6 harg6 arg7 harg7 arg8 harg8 arg9 harg9 hc x0 x1 x2 x3 x4 x5 xs0 xs1)]
  unfold runFirst runFirst.sl.H8_1; dsimp only
  rw [View.canon_unit_zero zero2]
  simp only [View.readAt_eq_ld, harg1.read_unread, harg3.read_unread, harg4.read_unread, View.ld_unit_zero (S := S10000x128) zero2, View.ld_unit_zero (S := S128x128) zero2, View.ld_unit_zero (S := S1x128) zero2]

/-- After the first strip the second scratch holds the gate on each of its first 10000 rows: entry (p, q) of
    the scratch, for p < 10000, is entry (p, q) of sigmoid(x·Wg + bg). -/
theorem first_gate (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : cond0 i)
    (x0 : Vec F S10000x128 .f32) (x1 : Vec F S512x10000 .f32) (x2 : Vec F S128x128 .f32) (x3 : Vec F S1x128 .f32) (x4 : Vec F S128x128 .f32) (x5 : Vec F S1x128 .f32)
    (xs0 : Vec F S10000x128 .f32) (xs1 : Vec F S10240x128 .f32) (g : arg9.view.ty.Contents (Elt F))
    (y : S10240x128.Idx) (y' : S10000x128.Idx) (h0 : (y 0).val = (y' 0).val) (h1 : (y 1).val = (y' 1).val) :
    arg9.view.read (Elt F) (arg9.view.writes (Elt F) g (runFirst c i arg1 harg1 arg2 harg2 arg3 harg3 arg4 harg4 arg5 harg5 arg6 harg6 arg7 harg7 arg8 harg8 arg9 harg9 hc x0 x1 x2 x3 x4 x5 xs0 xs1).2.2.1) y = k0_pay2 x0 x4 x5 y' := by
  unfold runFirst runFirst.sl.H9_1; dsimp only
  simp only [View.readAt_eq_ld, harg1.read_unread, harg5.read_unread, harg6.read_unread, View.ld_unit_zero (S := S10000x128) zero2, View.ld_unit_zero (S := S128x128) zero2, View.ld_unit_zero (S := S1x128) zero2]
  exact View.read_writes_cons_rows_of_mem (o := 0) arg9.view g _ _ [] y y' rfl (by rw [h0]; exact (Nat.zero_add _).symm) h1

theorem first_out_cover (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : cond0 i)
    (x0 : Vec F S10000x128 .f32) (x1 : Vec F S512x10000 .f32) (x2 : Vec F S128x128 .f32) (x3 : Vec F S1x128 .f32) (x4 : Vec F S128x128 .f32) (x5 : Vec F S1x128 .f32)
    (xs0 : Vec F S10000x128 .f32) (xs1 : Vec F S10240x128 .f32) (y : S512x128.Idx) :
    ∃ pc ∈ (runFirst c i arg1 harg1 arg2 harg2 arg3 harg3 arg4 harg4 arg5 harg5 arg6 harg6 arg7 harg7 arg8 harg8 arg9 harg9 hc x0 x1 x2 x3 x4 x5 xs0 xs1).1, y ∈ pc.1.set :=
  View.cover_of_tiledL (runFirst c i arg1 harg1 arg2 harg2 arg3 harg3 arg4 harg4 arg5 harg5 arg6 harg6 arg7 harg7 arg8 harg8 arg9 harg9 hc x0 x1 x2 x3 x4 x5 xs0 xs1).1 S512x128.size (by sl_kernel_rfl) y

/-- After the first strip the result's staging buffer holds strip 0's block of the product against the h just
    stored, gated by the rows of the second scratch as the store left it. -/
theorem first_out (c : Dev nD) (i : grid0.Coords) (arg1 : Memref sig .tc .vmem S10000x128 .f32) (harg1 : arg1.IsWhole) (arg2 : Memref sig .tc .vmem S512x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S10000x128 .f32) (harg8 : arg8.IsWhole) (arg9 : Memref sig .tc .vmem S10240x128 .f32) (harg9 : arg9.IsWhole) (hc : cond0 i)
    (x0 : Vec F S10000x128 .f32) (x1 : Vec F S512x10000 .f32) (x2 : Vec F S128x128 .f32) (x3 : Vec F S1x128 .f32) (x4 : Vec F S128x128 .f32) (x5 : Vec F S1x128 .f32)
    (xs0 : Vec F S10000x128 .f32) (xs1 : Vec F S10240x128 .f32) (f : arg7.view.ty.Contents (Elt F)) :
    arg7.view.read (Elt F) (arg7.view.writes (Elt F) f (runFirst c i arg1 harg1 arg2 harg2 arg3 harg3 arg4 harg4 arg5 harg5 arg6 harg6 arg7 harg7 arg8 harg8 arg9 harg9 hc x0 x1 x2 x3 x4 x5 xs0 xs1).1)
      = k0_pay3 x1 (k0_pay1 x0 x2 x3) (gateRows i (arg9.view.read (Elt F) (arg9.view.writes (Elt F) (harg9.unread xs1) (runFirst c i arg1 harg1 arg2 harg2 arg3 harg3 arg4 harg4 arg5 harg5 arg6 harg6 arg7 harg7 arg8 harg8 arg9 harg9 hc x0 x1 x2 x3 x4 x5 xs0 xs1).2.2.1))) := by
  rw [View.read_writes_eq_canon _ _ _ (first_out_cover c i arg1 harg1 arg2 harg2 arg3 harg3 arg4 harg4 arg5 harg5 arg6 harg6 arg7 harg7 arg8 harg8 arg9 harg9 hc x0 x1 x2 x3 x4 x5 xs0 xs1)]
  unfold runFirst runFirst.sl.v5 runFirst.sl.H9_1 runFirst.sl.H8_1; dsimp only
  rw [View.canon_unit_zero zero2, View.readCov_unit_zero _ zero2]
  simp only [View.readAt_eq_ld, harg1.read_unread, harg2.read_unread, harg3.read_unread, harg4.read_unread, harg5.read_unread, harg6.read_unread, View.ld_unit_zero (S := S512x10000) zero2, View.ld_unit_zero (S := S10000x128) zero2, View.ld_unit_zero (S := S128x128) zero2, View.ld_unit_zero (S := S1x128) zero2]
  rfl

end Cert.KernelIdeal.Body

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.LibRowPerceptron.lean ====
/-
  A two-layer perceptron, read one row at a time on the extended reals.

  The output row p of   relu (x · W₁ + b₁) · W₂ + b₂   depends on row p of x only:

      out (p, u) = Σ_k  max (Σ_j x (p, j) · W₁ (j, k) + b₁ k) 0 · W₂ (k, u)  +  b₂ u .

  Two spellings of that array are read at an entry and found to be this expression: the one a kernel forms (two
  products into the zero accumulator with the operands' formats narrowed on the way, the biases kept as 1 × n rows
  and repeated down the rows, the zero of the maximum a scalar repeated), and the one a host program forms (two
  general dot products, each bias taken from a vector to a 1 × n row and then down the rows, the zero a scalar array
  repeated).  On the extended reals a change of format is the identity and both products are the plain finite sum,
  so the two spellings agree entry by entry, on arrays of any number of rows.

  Beside it: arrays of 64 columns set side by side along the columns, read at a column as the piece the column
  falls in; and the host's  1 / (1 + exp (−y))  read at an entry as the logistic function of the entry.

  Nothing here knows a program.
-/
import Idealize.ShloMosaic.Lib.ValueIdx
import Idealize.ShloMosaic.Lib.Pipeline.Value
import Idealize.ShloMosaic.Lib.IdealHost
import Idealize.ShloMosaic.PureOps.Ideal.Laws
import proofs.«100890_g63015760167423_cont_sun_m_150_20_alg».proof.Proof.LibRowsProduct

noncomputable section

open scoped BigOperators

namespace Cert.RowPerceptron

open Idealize.ShloMosaic Idealize.ShloMosaic.ValueIdx

/-! ## Arrays of 64 columns set side by side -/

section Pieces

variable {α : Type}

/-- Column j of two 64-column rows set side by side. -/
def pick2 (x0 x1 : Fin 64 → α) (j : Fin 128) : α :=
  if h : j.val < 64 then x0 ⟨j.val, h⟩ else x1 ⟨j.val - 64, by have := j.isLt; omega⟩

/-- Column j of three 64-column rows set side by side. -/
def pick3 (x0 x1 x2 : Fin 64 → α) (j : Fin 192) : α :=
  if h : j.val < 64 then x0 ⟨j.val, h⟩
  else if h' : j.val < 128 then x1 ⟨j.val - 64, by omega⟩
  else x2 ⟨j.val - 128, by have := j.isLt; omega⟩

/-- Two a × 64 arrays joined along the columns: entry (r, j) is column j of the two rows r set side by side. -/
theorem concat2_apply {a : ℕ} (x0 x1 : (⟨2, ![a, 64]⟩ : Shape).Idx → α)
    (h : Shape.Concatenates (([⟨⟨2, ![a, 64]⟩, x0⟩, ⟨⟨2, ![a, 64]⟩, x1⟩] :
      List ((s : Shape) × (s.Idx → α))).map (·.1)) ⟨2, ![a, 128]⟩ 1)
    (r : Fin a) (j : Fin 128) :
    concatenate ⟨2, ![a, 128]⟩ 1 [⟨⟨2, ![a, 64]⟩, x0⟩, ⟨⟨2, ![a, 64]⟩, x1⟩] h (ix2 r j)
      = pick2 (fun q => x0 (ix2 r q)) (fun q => x1 (ix2 r q)) j := by
  unfold pick2
  by_cases hj : j.val < 64
  · rw [dif_pos hj]
    refine concatenate_apply_piece 1 _ h (ix2 r j) 0 (by show 0 < 2; omega) ⟨2, ![a, 64]⟩ x0 rfl rfl 0 rfl
      (ix2 r ⟨j.val, hj⟩) ?_ ?_
    · intro ax hax
      match ax with
      | ⟨0, _⟩ => rfl
      | ⟨1, _⟩ => exact absurd rfl hax
    · show 0 + j.val = j.val
      omega
  · rw [dif_neg hj]
    refine concatenate_apply_piece 1 _ h (ix2 r j) 1 (by show 1 < 2; omega) ⟨2, ![a, 64]⟩ x1 rfl rfl 64 rfl
      (ix2 r ⟨j.val - 64, by have := j.isLt; omega⟩) ?_ ?_
    · intro ax hax
      match ax with
      | ⟨0, _⟩ => rfl
      | ⟨1, _⟩ => exact absurd rfl hax
    · show 64 + (j.val - 64) = j.val
      omega

/-- Three a × 64 arrays joined along the columns: entry (r, j) is column j of the three rows r set side by side. -/
theorem concat3_apply {a : ℕ} (x0 x1 x2 : (⟨2, ![a, 64]⟩ : Shape).Idx → α)
    (h : Shape.Concatenates (([⟨⟨2, ![a, 64]⟩, x0⟩, ⟨⟨2, ![a, 64]⟩, x1⟩, ⟨⟨2, ![a, 64]⟩, x2⟩] :
      List ((s : Shape) × (s.Idx → α))).map (·.1)) ⟨2, ![a, 192]⟩ 1)
    (r : Fin a) (j : Fin 192) :
    concatenate ⟨2, ![a, 192]⟩ 1 [⟨⟨2, ![a, 64]⟩, x0⟩, ⟨⟨2, ![a, 64]⟩, x1⟩, ⟨⟨2, ![a, 64]⟩, x2⟩] h (ix2 r j)
      = pick3 (fun q => x0 (ix2 r q)) (fun q => x1 (ix2 r q)) (fun q => x2 (ix2 r q)) j := by
  unfold pick3
  by_cases hj : j.val < 64
  · rw [dif_pos hj]
    refine concatenate_apply_piece 1 _ h (ix2 r j) 0 (by show 0 < 3; omega) ⟨2, ![a, 64]⟩ x0 rfl rfl 0 rfl
      (ix2 r ⟨j.val, hj⟩) ?_ ?_
    · intro ax hax
      match ax with
      | ⟨0, _⟩ => rfl
      | ⟨1, _⟩ => exact absurd rfl hax
    · show 0 + j.val = j.val
      omega
  · rw [dif_neg hj]
    by_cases hj' : j.val < 128
    · rw [dif_pos hj']
      refine concatenate_apply_piece 1 _ h (ix2 r j) 1 (by show 1 < 3; omega) ⟨2, ![a, 64]⟩ x1 rfl rfl 64 rfl
        (ix2 r ⟨j.val - 64, by omega⟩) ?_ ?_
      · intro ax hax
        match ax with
        | ⟨0, _⟩ => rfl
        | ⟨1, _⟩ => exact absurd rfl hax
      · show 64 + (j.val - 64) = j.val
        omega
    · rw [dif_neg hj']
      refine concatenate_apply_piece 1 _ h (ix2 r j) 2 (by show 2 < 3; omega) ⟨2, ![a, 64]⟩ x2 rfl rfl 128 rfl
        (ix2 r ⟨j.val - 128, by have := j.isLt; omega⟩) ?_ ?_
      · intro ax hax
        match ax with
        | ⟨0, _⟩ => rfl
        | ⟨1, _⟩ => exact absurd rfl hax
      · show 128 + (j.val - 128) = j.val
        omega

end Pieces

/-! ## The perceptron at an entry -/

variable {a K H O : ℕ}

/-- relu (x · W₁ + b₁) · W₂ + b₂ at column u, from one row x of the input. -/
def mlp (x : Fin K → EReal) (W1 : (⟨2, ![K, H]⟩ : Shape).Idx → EReal) (b1 : Fin H → EReal)
    (W2 : (⟨2, ![H, O]⟩ : Shape).Idx → EReal) (b2 : Fin O → EReal) (u : Fin O) : EReal :=
  (∑ k : Fin H, max ((∑ j : Fin K, x j * W1 (ix2 j k)) + b1 k) (Ideal.ofBits .f32 0x00000000#32) * W2 (ix2 k u)) + b2 u

/-- A 1 × n row, cast to its own shape and repeated down a rows, reads at (p, u) the row's entry u. -/
theorem rowBias_apply {α : Type} {n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![a, n]⟩)
    (p : Fin a) (u : Fin n) :
    broadcastTo ⟨2, ![a, n]⟩ (shapeCast ⟨2, ![1, n]⟩ v hc) hb (ix2 p u) = v (ix2 (0 : Fin 1) u) := by
  rw [shapeCast_self]
  refine broadcastTo_apply v hb (ix2 p u) (ix2 (0 : Fin 1) u) fun ax => ?_
  match ax with
  | ⟨0, _⟩ => rfl
  | ⟨1, _⟩ =>
    show u.val = if n = 1 then 0 else u.val
    split
    · have := u.isLt; omega
    · rfl

/-- A vector of n numbers taken to a 1 × n row and then repeated down a rows reads at (p, u) the vector's entry u. -/
theorem vecBias_apply {α : Type} {n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1])
    (p : Fin a) (u : Fin n) :
    broadcastInDim ⟨2, ![a, n]⟩ ![0, 1] h2 (broadcastInDim ⟨2, ![1, n]⟩ ![1] h1 v) (ix2 p u) = v (ix1 u) := by
  rw [broadcastInDim_apply ![0, 1] h2 _ (ix2 p u) (ix2 (0 : Fin 1) u) (fun ax => by
    match ax with
    | ⟨0, _⟩ => rfl
    | ⟨1, _⟩ =>
      show u.val = if n = 1 then 0 else u.val
      split
      · have := u.isLt; omega
      · rfl)]
  refine broadcastInDim_apply ![1] h1 v (ix2 (0 : Fin 1) u) (ix1 u) fun ax => ?_
  match ax with
  | ⟨0, _⟩ =>
    show u.val = if n = 1 then 0 else u.val
    split
    · have := u.isLt; omega
    · rfl

/-- The kernel's spelling, at entry (p, u), is the perceptron of row p. -/
theorem kernel_mlp_apply {φx φ1 φ2 : FTy}
    (D1 : DotDims ⟨2, ![a, K]⟩ ⟨2, ![K, H]⟩ ⟨2, ![a, H]⟩) (D2 : DotDims ⟨2, ![a, H]⟩ ⟨2, ![H, O]⟩ ⟨2, ![a, O]⟩)
    (h1r : D1.contr.rank = 1) (h1s : D1.contr.size ⟨0, by omega⟩ = K)
    (h1l0 : ∀ j q, (D1.lhsIdx j q 0).val = (j 0).val) (h1l1 : ∀ j q, (D1.lhsIdx j q 1).val = (q ⟨0, by omega⟩).val)
    (h1r0 : ∀ j q, (D1.rhsIdx j q 0).val = (q ⟨0, by omega⟩).val) (h1r1 : ∀ j q, (D1.rhsIdx j q 1).val = (j 1).val)
    (h2r : D2.contr.rank = 1) (h2s : D2.contr.size ⟨0, by omega⟩ = H)
    (h2l0 : ∀ j q, (D2.lhsIdx j q 0).val = (j 0).val) (h2l1 : ∀ j q, (D2.lhsIdx j q 1).val = (q ⟨0, by omega⟩).val)
    (h2r0 : ∀ j q, (D2.rhsIdx j q 0).val = (q ⟨0, by omega⟩).val) (h2r1 : ∀ j q, (D2.rhsIdx j q 1).val = (j 1).val)
    (x : FVec Ideal ⟨2, ![a, K]⟩ φx) (W1 : FVec Ideal ⟨2, ![K, H]⟩ φ1) (W2 : FVec Ideal ⟨2, ![H, O]⟩ φ2)
    (b1 : FVec Ideal ⟨2, ![1, H]⟩ .f32) (b2 : FVec Ideal ⟨2, ![1, O]⟩ .f32)
    (hc1 : (⟨2, ![1, H]⟩ : Shape).ShapeCasts ⟨2, ![1, H]⟩) (hb1 : (⟨2, ![1, H]⟩ : Shape).Broadcasts ⟨2, ![a, H]⟩)
    (hc2 : (⟨2, ![1, O]⟩ : Shape).ShapeCasts ⟨2, ![1, O]⟩) (hb2 : (⟨2, ![1, O]⟩ : Shape).Broadcasts ⟨2, ![a, O]⟩)
    (hlt : (FTy.bf16).bits < (FTy.f32).bits) (p : Fin a) (u : Fin O) :
    addf (matmul D2 none
          (truncf .bf16 (maximumf (addf (matmul D1 none x W1 (constant ⟨2, ![a, H]⟩ .f32 0x00000000#32))
              (broadcastTo ⟨2, ![a, H]⟩ (shapeCast ⟨2, ![1, H]⟩ b1 hc1) hb1))
            (broadcast ⟨2, ![a, H]⟩ (Scalar.ofBits (F := Ideal) .f32 0x00000000#32))) hlt)
          W2 (constant ⟨2, ![a, O]⟩ .f32 0x00000000#32))
        (broadcastTo ⟨2, ![a, O]⟩ (shapeCast ⟨2, ![1, O]⟩ b2 hc2) hb2) (ix2 p u)
      = mlp (fun j => x (ix2 p j)) W1 (fun k => b1 (ix2 (0 : Fin 1) k)) W2 (fun v => b2 (ix2 (0 : Fin 1) v)) u := by
  show FloatOps.matmul D2 none _ W2 (constant ⟨2, ![a, O]⟩ .f32 0x00000000#32) (ix2 p u)
      + broadcastTo ⟨2, ![a, O]⟩ (shapeCast ⟨2, ![1, O]⟩ b2 hc2) hb2 (ix2 p u) = _
  rw [Cert.RowsProduct.matmul_zero_rows_apply D2 none h2r h2s h2l0 h2l1 h2r0 h2r1, rowBias_apply]
  unfold mlp
  refine congrArg (· + b2 (ix2 (0 : Fin 1) u)) (Finset.sum_congr rfl fun k _ => ?_)
  show max (FloatOps.matmul D1 none x W1 (constant ⟨2, ![a, H]⟩ .f32 0x00000000#32) (ix2 p k)
      + broadcastTo ⟨2, ![a, H]⟩ (shapeCast ⟨2, ![1, H]⟩ b1 hc1) hb1 (ix2 p k)) (Ideal.ofBits .f32 0x00000000#32) * W2 (ix2 k u) = _
  rw [Cert.RowsProduct.matmul_zero_rows_apply D1 none h1r h1s h1l0 h1l1 h1r0 h1r1, rowBias_apply]

/-- The host's spelling, at entry (p, u), is the perceptron of row p. -/
theorem host_mlp_apply {φx φ1 φ2 : FTy}
    (D1 : DotDims ⟨2, ![a, K]⟩ ⟨2, ![K, H]⟩ ⟨2, ![a, H]⟩) (D2 : DotDims ⟨2, ![a, H]⟩ ⟨2, ![H, O]⟩ ⟨2, ![a, O]⟩)
    (h1r : D1.contr.rank = 1) (h1s : D1.contr.size ⟨0, by omega⟩ = K)
    (h1l0 : ∀ j q, (D1.lhsIdx j q 0).val = (j 0).val) (h1l1 : ∀ j q, (D1.lhsIdx j q 1).val = (q ⟨0, by omega⟩).val)
    (h1r0 : ∀ j q, (D1.rhsIdx j q 0).val = (q ⟨0, by omega⟩).val) (h1r1 : ∀ j q, (D1.rhsIdx j q 1).val = (j 1).val)
    (h2r : D2.contr.rank = 1) (h2s : D2.contr.size ⟨0, by omega⟩ = H)
    (h2l0 : ∀ j q, (D2.lhsIdx j q 0).val = (j 0).val) (h2l1 : ∀ j q, (D2.lhsIdx j q 1).val = (q ⟨0, by omega⟩).val)
    (h2r0 : ∀ j q, (D2.rhsIdx j q 0).val = (q ⟨0, by omega⟩).val) (h2r1 : ∀ j q, (D2.rhsIdx j q 1).val = (j 1).val)
    (x : FVec Ideal ⟨2, ![a, K]⟩ φx) (W1 : FVec Ideal ⟨2, ![K, H]⟩ φ1) (W2 : FVec Ideal ⟨2, ![H, O]⟩ φ2)
    (b1 : FVec Ideal ⟨1, ![H]⟩ .f32) (b2 : FVec Ideal ⟨1, ![O]⟩ .f32)
    (hv1 : (⟨1, ![H]⟩ : Shape).BroadcastsInDim ⟨2, ![1, H]⟩ ![1])
    (hw1 : (⟨2, ![1, H]⟩ : Shape).BroadcastsInDim ⟨2, ![a, H]⟩ ![0, 1])
    (hv2 : (⟨1, ![O]⟩ : Shape).BroadcastsInDim ⟨2, ![1, O]⟩ ![1])
    (hw2 : (⟨2, ![1, O]⟩ : Shape).BroadcastsInDim ⟨2, ![a, O]⟩ ![0, 1])
    (hz : (⟨0, ![]⟩ : Shape).BroadcastsInDim ⟨2, ![a, H]⟩ ![]) (p : Fin a) (u : Fin O) :
    addf (Host.dotGeneral D2 none
          (maximumf (addf (Host.dotGeneral D1 none x W1)
              (broadcastInDim ⟨2, ![a, H]⟩ ![0, 1] hw1 (broadcastInDim ⟨2, ![1, H]⟩ ![1] hv1 b1)))
            (broadcastInDim ⟨2, ![a, H]⟩ ![] hz (constant (F := Ideal) ⟨0, ![]⟩ .f32 0x00000000#32)))
          W2)
        (broadcastInDim ⟨2, ![a, O]⟩ ![0, 1] hw2 (broadcastInDim ⟨2, ![1, O]⟩ ![1] hv2 b2)) (ix2 p u)
      = mlp (fun j => x (ix2 p j)) W1 (fun k => b1 (ix1 k)) W2 (fun v => b2 (ix1 v)) u := by
  show FloatOps.dotGeneral D2 none .single _ W2 (ix2 p u)
      + broadcastInDim ⟨2, ![a, O]⟩ ![0, 1] hw2 (broadcastInDim ⟨2, ![1, O]⟩ ![1] hv2 b2) (ix2 p u) = _
  rw [Cert.RowsProduct.dotGeneral_rows_apply D2 none .single h2r h2s h2l0 h2l1 h2r0 h2r1, vecBias_apply]
  unfold mlp
  refine congrArg (· + b2 (ix1 u)) (Finset.sum_congr rfl fun k _ => ?_)
  show max (FloatOps.dotGeneral D1 none .single x W1 (ix2 p k)
      + broadcastInDim ⟨2, ![a, H]⟩ ![0, 1] hw1 (broadcastInDim ⟨2, ![1, H]⟩ ![1] hv1 b1) (ix2 p k))
      (broadcastInDim ⟨2, ![a, H]⟩ ![] hz (constant (F := Ideal) ⟨0, ![]⟩ .f32 0x00000000#32) (ix2 p k)) * W2 (ix2 k u) = _
  rw [Cert.RowsProduct.dotGeneral_rows_apply D1 none .single h1r h1s h1l0 h1l1 h1r0 h1r1, vecBias_apply,
    broadcastInDim_scalar_apply]
  rfl

/-! ## The logistic function, spelt out on the host -/

/-- 1 / (1 + exp (−y)), the ones scalar arrays repeated, is at each entry the logistic function of the entry. -/
theorem host_logistic_apply {s : Shape} (h1 h2 : (⟨0, ![]⟩ : Shape).BroadcastsInDim s ![])
    (y : FVec Ideal s .f32) (i : s.Idx) :
    Host.divf (broadcastInDim s ![] h1 (constant (F := Ideal) ⟨0, ![]⟩ .f32 0x3F800000#32))
        (addf (broadcastInDim s ![] h2 (constant (F := Ideal) ⟨0, ![]⟩ .f32 0x3F800000#32)) (Host.exp (Host.negf y))) i
      = Ideal.logistic (y i) := by
  show Ideal.div (broadcastInDim s ![] h1 (constant (F := Ideal) ⟨0, ![]⟩ .f32 0x3F800000#32) i)
      (broadcastInDim s ![] h2 (constant (F := Ideal) ⟨0, ![]⟩ .f32 0x3F800000#32) i + Ideal.exp (-(y i))) = _
  simp only [broadcastInDim_scalar_apply]
  show Ideal.div (Ideal.ofBits .f32 0x3F800000#32) (Ideal.ofBits .f32 0x3F800000#32 + Ideal.exp (-(y i))) = _
  rw [Ideal.ofBits_one_f32]
  rfl

end Cert.RowPerceptron

end
-- ==== Proof.IdealPayload.lean ====
/-
  The three values the body stores, read at an entry on the extended reals.

  h (k, q)      = Σ_l x (k, l) · W0 (l, q) + b0 q               (stored over the first scratch)
  gate (p, q)   = logistic (Σ_l x (p, l) · Wg (l, q) + bg q)    (stored over the second scratch)
  block (r, q)  = g (r, q) · Σ_k A (r, k) · H (k, q)            (stored into the result's buffer: A the strip,
                                                                 H the first scratch, g the strip's gate rows)

  Each product is formed into a zero accumulator, which on the extended reals is the plain finite sum; a bias is
  a 1 × 128 row repeated down the rows; a cast of an array to its own shape is the identity. Row r of the block
  depends on row r of the strip and row r of the gate rows only.
-/
import proofs.«100890_g63015760167423_cont_sun_m_150_20_alg».proof.Proof.Gen.KernelIdeal.Skeleton
import proofs.«100890_g63015760167423_cont_sun_m_150_20_alg».proof.Proof.LibRowPerceptron
import Idealize.ShloMosaic.Lib.Pipeline.Value

noncomputable section

open scoped BigOperators

namespace Cert.KernelIdeal.Body

open Cert.KernelIdeal Cert.KernelIdeal.Gen
open Idealize.ShloMosaic Idealize.ShloMosaic.ValueIdx

/-! ## Where the two products' dimension records send an output index and a contraction index -/

theorem d1_l0 (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem d1_l1 (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem d1_r0 (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem d1_r1 (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem d2_l0 (j : S512x128.Idx) (q : dot_S512x10000_S10000x128_S512x128_1_0_0_1_n_n.contr.Idx) : (dot_S512x10000_S10000x128_S512x128_1_0_0_1_n_n.lhsIdx j q 0).val = (j 0).val := by
  unfold DotDims.lhsIdx
  rw [dif_neg (show ¬(0 : Fin S512x10000.rank) ∈ dot_S512x10000_S10000x128_S512x128_1_0_0_1_n_n.lhsBatch by decide), dif_pos (show (0 : Fin S512x10000.rank) ∈ dot_S512x10000_S10000x128_S512x128_1_0_0_1_n_n.lhsNonContracting by decide)]
  rfl
theorem d2_l1 (j : S512x128.Idx) (q : dot_S512x10000_S10000x128_S512x128_1_0_0_1_n_n.contr.Idx) : (dot_S512x10000_S10000x128_S512x128_1_0_0_1_n_n.lhsIdx j q 1).val = (q ⟨0, by decide⟩).val :=
  dot_S512x10000_S10000x128_S512x128_1_0_0_1_n_n.lhsIdx_val_of_single rfl j q
theorem d2_r0 (j : S512x128.Idx) (q : dot_S512x10000_S10000x128_S512x128_1_0_0_1_n_n.contr.Idx) : (dot_S512x10000_S10000x128_S512x128_1_0_0_1_n_n.rhsIdx j q 0).val = (q ⟨0, by decide⟩).val :=
  dot_S512x10000_S10000x128_S512x128_1_0_0_1_n_n.rhsIdx_val_of_single rfl j q
theorem d2_r1 (j : S512x128.Idx) (q : dot_S512x10000_S10000x128_S512x128_1_0_0_1_n_n.contr.Idx) : (dot_S512x10000_S10000x128_S512x128_1_0_0_1_n_n.rhsIdx j q 1).val = (j 1).val := by
  unfold DotDims.rhsIdx
  rw [dif_neg (show ¬(1 : Fin S10000x128.rank) ∈ dot_S512x10000_S10000x128_S512x128_1_0_0_1_n_n.rhsBatch by decide), dif_pos (show (1 : Fin S10000x128.rank) ∈ dot_S512x10000_S10000x128_S512x128_1_0_0_1_n_n.rhsNonContracting by decide)]
  rfl

/-! ## The payloads at an entry -/

/-- The value stored over the first scratch, at entry (k, q): row k of x against column q of W, plus the bias. -/
theorem pay1_apply (x : Vec Ideal S10000x128 .f32) (W : Vec Ideal S128x128 .f32) (b : Vec Ideal S1x128 .f32)
    (k : Fin 10000) (q : Fin 128) :
    k0_pay1 (F := Ideal) x W b (ix2 k q) = (∑ l : Fin 128, x (ix2 k l) * W (ix2 l q)) + b (ix2 (0 : Fin 1) q) := by
  unfold k0_pay1
  rw [shapeCast_self]
  show FloatOps.matmul (F := Ideal) dot_S10000x128_S128x128_S10000x128_1_0_0_1_n_n none x W (constant S10000x128 .f32 0x00000000#32) (ix2 k q)
      + broadcastTo S10000x128 (shapeCast S1x128 b shapeCasts_S1x128_S1x128) broadcasts_S1x128_S10000x128 (ix2 k q) = _
  rw [Cert.RowsProduct.matmul_zero_rows_apply dot_S10000x128_S128x128_S10000x128_1_0_0_1_n_n none rfl rfl d1_l0 d1_l1 d1_r0 d1_r1,
    Cert.RowPerceptron.rowBias_apply]

/-- The value stored over the second scratch, at entry (p, q): the logistic function of the same expression in Wg, bg. -/
theorem pay2_apply (x : Vec Ideal S10000x128 .f32) (W : Vec Ideal S128x128 .f32) (b : Vec Ideal S1x128 .f32)
    (p : Fin 10000) (q : Fin 128) :
    k0_pay2 (F := Ideal) x W b (ix2 p q)
      = Ideal.logistic ((∑ l : Fin 128, x (ix2 p l) * W (ix2 l q)) + b (ix2 (0 : Fin 1) q)) := by
  unfold k0_pay2
  rw [shapeCast_self]
  show Ideal.logistic (FloatOps.matmul (F := Ideal) dot_S10000x128_S128x128_S10000x128_1_0_0_1_n_n none x W (constant S10000x128 .f32 0x00000000#32) (ix2 p q)
      + broadcastTo S10000x128 (shapeCast S1x128 b shapeCasts_S1x128_S1x128) broadcasts_S1x128_S10000x128 (ix2 p q)) = _
  rw [Cert.RowsProduct.matmul_zero_rows_apply dot_S10000x128_S128x128_S10000x128_1_0_0_1_n_n none rfl rfl d1_l0 d1_l1 d1_r0 d1_r1,
    Cert.RowPerceptron.rowBias_apply]

/-- The block stored into the result's buffer, at entry (r, q): the gate row's entry times row r of the strip
    against column q of h. -/
theorem pay3_apply (A : Vec Ideal S512x10000 .f32) (H : Vec Ideal S10000x128 .f32) (g : Vec Ideal S512x128 .f32)
    (r : Fin 512) (q : Fin 128) :
    k0_pay3 (F := Ideal) A H g (ix2 r q) = g (ix2 r q) * ∑ k : Fin 10000, A (ix2 r k) * H (ix2 k q) := by
  unfold k0_pay3
  show g (ix2 r q) * FloatOps.matmul (F := Ideal) dot_S512x10000_S10000x128_S512x128_1_0_0_1_n_n none (shapeCast S512x10000 A shapeCasts_S512x10000_S512x10000) H (constant S512x128 .f32 0x00000000#32) (ix2 r q) = _
  rw [shapeCast_self, Cert.RowsProduct.matmul_zero_rows_apply dot_S512x10000_S10000x128_S512x128_1_0_0_1_n_n none rfl rfl d2_l0 d2_l1 d2_r0 d2_r1]

end Cert.KernelIdeal.Body

end
-- ==== Proof.Spec.lean ====
/-
  The gated graph-convolution layer as one function of its arguments, entry by entry, on the extended reals.

  With  dense x W b (k, q) = Σ_l x (k, l) · W (l, q) + b q   (a linear layer applied to row k of x),

      out (p, q) = logistic (dense x Wg bg (p, q)) · Σ_k adj (p, k) · dense x W0 b0 (k, q) .

  Row p of the result depends on row p of the adjacency and on row p of the gate only, and on all of
  h = dense x W0 b0.  Nothing here knows a program.
-/
import Idealize.ShloMosaic.Lib.ValueIdx
import Idealize.ShloMosaic.PureOps.Ideal.Laws

noncomputable section

open scoped BigOperators

namespace Cert.GatedConv

open Idealize.ShloMosaic Idealize.ShloMosaic.ValueIdx

/-- A linear layer at entry (k, q): row k of `x` against column q of `W`, plus the bias of column q. -/
def dense (x : (⟨2, ![10000, 128]⟩ : Shape).Idx → EReal) (W : (⟨2, ![128, 128]⟩ : Shape).Idx → EReal) (b : Fin 128 → EReal)
    (k : Fin 10000) (q : Fin 128) : EReal :=
  (∑ l : Fin 128, x (ix2 k l) * W (ix2 l q)) + b q

/-- The layer's result at entry (p, q): the gate of (p, q) times row p of the adjacency against column q of h. -/
def out (x : (⟨2, ![10000, 128]⟩ : Shape).Idx → EReal) (adj : (⟨2, ![10000, 10000]⟩ : Shape).Idx → EReal)
    (W0 : (⟨2, ![128, 128]⟩ : Shape).Idx → EReal) (b0 : Fin 128 → EReal)
    (Wg : (⟨2, ![128, 128]⟩ : Shape).Idx → EReal) (bg : Fin 128 → EReal) (p : Fin 10000) (q : Fin 128) : EReal :=
  Ideal.logistic (dense x Wg bg p q) * ∑ k : Fin 10000, adj (ix2 p k) * dense x W0 b0 k q

end Cert.GatedConv

end
-- ==== Proof.IdealData.lean ====
/-
  The proof data of the idealized kernel's one pipeline: what every staging buffer holds after the body at
  each strip, and the invariant that carries the two scratch arrays from strip to strip.

  After strip t the result's staging buffer holds, on its rows inside the array, rows 512·t … of the layer's
  result G; the adjacency's buffer holds strip t; the other inputs' buffers hold their arrays. From strip 1 on
  the first scratch holds h = x·W0 + b0 and the second holds the gate on its first 10000 rows — its last 240 rows,
  and the rows of a staging buffer past the array's end, hold values nothing names: the last strip reads them
  and writes what it computes from them into staging rows that are never written back.
-/
import proofs.«100890_g63015760167423_cont_sun_m_150_20_alg».proof.Proof.IdealPieces
import proofs.«100890_g63015760167423_cont_sun_m_150_20_alg».proof.Proof.IdealPayload
import proofs.«100890_g63015760167423_cont_sun_m_150_20_alg».proof.Proof.Spec

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The grid, decided once -/

/-- The five small inputs' index maps are constant. -/
theorem idx_in : ∀ t : Fin cfg0.N, (win0_0.index t 0 = 0 ∧ win0_0.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) :=
  (by decide +kernel : ∀ t : Fin grid0.N, (win0_0.index t 0 = 0 ∧ win0_0.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0))

/-- The adjacency's and the result's block at strip t is block t of their rows, all columns. -/
theorem idx_strip : ∀ t : Fin cfg0.N, win0_1.index t 0 = t.val ∧ win0_1.index t 1 = 0 ∧ win0_6.index t 0 = t.val ∧ win0_6.index t 1 = 0 :=
  (by decide +kernel : ∀ t : Fin grid0.N, win0_1.index t 0 = t.val ∧ win0_1.index t 1 = 0 ∧ win0_6.index t 0 = t.val ∧ win0_6.index t 1 = 0)

/-- The part of strip t inside the arrays: at most 512 rows from row 512·t, all 512 of them unless they reach the arrays' last row; the two
    windows are cut alike. -/
theorem xs_strip : ∀ t : Fin cfg0.N, win0_1.xsize (grid0.coords t) 0 = win0_6.xsize (grid0.coords t) 0 ∧ win0_1.xsize (grid0.coords t) 1 = 10000
    ∧ win0_6.xsize (grid0.coords t) 1 = 128 ∧ win0_6.xsize (grid0.coords t) 0 + 512 * t.val ≤ 10000 ∧ win0_6.xsize (grid0.coords t) 0 ≤ 512 ∧ (win0_6.xsize (grid0.coords t) 0 = 512 ∨ win0_6.xsize (grid0.coords t) 0 + 512 * t.val = 10000) :=
  (by decide +kernel : ∀ t : Fin grid0.N, win0_1.xsize (grid0.coords t) 0 = win0_6.xsize (grid0.coords t) 0 ∧ win0_1.xsize (grid0.coords t) 1 = 10000
    ∧ win0_6.xsize (grid0.coords t) 1 = 128 ∧ win0_6.xsize (grid0.coords t) 0 + 512 * t.val ≤ 10000 ∧ win0_6.xsize (grid0.coords t) 0 ≤ 512 ∧ (win0_6.xsize (grid0.coords t) 0 = 512 ∨ win0_6.xsize (grid0.coords t) 0 + 512 * t.val = 10000))

/-- The gate rows strip t reads start at row 512·t. -/
theorem off_strip : ∀ t : Fin cfg0.N, k0_off1 (grid0.coords t) 0 = 512 * t.val ∧ k0_off1 (grid0.coords t) 1 = 0 :=
  (by decide +kernel : ∀ t : Fin grid0.N, k0_off1 (grid0.coords t) 0 = 512 * t.val ∧ k0_off1 (grid0.coords t) 1 = 0)

/-- The result's window never fetches. -/
theorem fetch6 : ∀ t : Fin cfg0.N, (cfg0.win 6).fetch t = false :=
  (by decide +kernel : ∀ t : Fin grid0.N, win0_6.fetch t = false)

/-! ## The arrays as the region finds them -/

abbrev xA (c : Dev nD) : Vec Ideal S10000x128 .f32 := V m c main_arg0
abbrev adjA (c : Dev nD) : Vec Ideal S10000x10000 .f32 := V m c main_v0
abbrev w0A (c : Dev nD) : Vec Ideal S128x128 .f32 := V m c main_arg2
abbrev b0A (c : Dev nD) : Vec Ideal S1x128 .f32 := V m c main_v1
abbrev wgA (c : Dev nD) : Vec Ideal S128x128 .f32 := V m c main_arg4
abbrev bgA (c : Dev nD) : Vec Ideal S1x128 .f32 := V m c main_v2

/-- Window 0's block at any strip is its whole array (the index map is constant, the block the array's size). -/
theorem iblk0_eq (c : Dev nD) (t : Fin cfg0.N) : iblk m c 0 t = xA m c := by
  funext y
  show V m c main_arg0 (((cfg0.win 0).blk t).view.emb y) = V m c main_arg0 y
  refine congrArg _ (funext fun a => Fin.ext ?_)
  have h := (idx_in t).1
  match a with
  | ⟨0, _⟩ => show win0_0.index t 0 * 10000 + 1 * (y 0).val = (y 0).val; rw [h.1]; omega
  | ⟨1, _⟩ => show win0_0.index t 1 * 128 + 1 * (y 1).val = (y 1).val; rw [h.2]; omega
/-- Window 2's block at any strip is its whole array (the index map is constant, the block the array's size). -/
theorem iblk2_eq (c : Dev nD) (t : Fin cfg0.N) : iblk m c 2 t = w0A m c := by
  funext y
  show V m c main_arg2 (((cfg0.win 2).blk t).view.emb y) = V m c main_arg2 y
  refine congrArg _ (funext fun a => Fin.ext ?_)
  have h := (idx_in t).2.1
  match a with
  | ⟨0, _⟩ => show win0_2.index t 0 * 128 + 1 * (y 0).val = (y 0).val; rw [h.1]; omega
  | ⟨1, _⟩ => show win0_2.index t 1 * 128 + 1 * (y 1).val = (y 1).val; rw [h.2]; omega
/-- Window 3's block at any strip is its whole array (the index map is constant, the block the array's size). -/
theorem iblk3_eq (c : Dev nD) (t : Fin cfg0.N) : iblk m c 3 t = b0A m c := by
  funext y
  show V m c main_v1 (((cfg0.win 3).blk t).view.emb y) = V m c main_v1 y
  refine congrArg _ (funext fun a => Fin.ext ?_)
  have h := (idx_in t).2.2.1
  match a with
  | ⟨0, _⟩ => show win0_3.index t 0 * 1 + 1 * (y 0).val = (y 0).val; rw [h.1]; omega
  | ⟨1, _⟩ => show win0_3.index t 1 * 128 + 1 * (y 1).val = (y 1).val; rw [h.2]; omega
/-- Window 4's block at any strip is its whole array (the index map is constant, the block the array's size). -/
theorem iblk4_eq (c : Dev nD) (t : Fin cfg0.N) : iblk m c 4 t = wgA m c := by
  funext y
  show V m c main_arg4 (((cfg0.win 4).blk t).view.emb y) = V m c main_arg4 y
  refine congrArg _ (funext fun a => Fin.ext ?_)
  have h := (idx_in t).2.2.2.1
  match a with
  | ⟨0, _⟩ => show win0_4.index t 0 * 128 + 1 * (y 0).val = (y 0).val; rw [h.1]; omega
  | ⟨1, _⟩ => show win0_4.index t 1 * 128 + 1 * (y 1).val = (y 1).val; rw [h.2]; omega
/-- Window 5's block at any strip is its whole array (the index map is constant, the block the array's size). -/
theorem iblk5_eq (c : Dev nD) (t : Fin cfg0.N) : iblk m c 5 t = bgA m c := by
  funext y
  show V m c main_v2 (((cfg0.win 5).blk t).view.emb y) = V m c main_v2 y
  refine congrArg _ (funext fun a => Fin.ext ?_)
  have h := (idx_in t).2.2.2.2
  match a with
  | ⟨0, _⟩ => show win0_5.index t 0 * 1 + 1 * (y 0).val = (y 0).val; rw [h.1]; omega
  | ⟨1, _⟩ => show win0_5.index t 1 * 128 + 1 * (y 1).val = (y 1).val; rw [h.2]; omega

/-- Entry (r, k) of the adjacency's block at strip t is entry (512·t + r, k) of the adjacency. -/
theorem iblk1_apply (c : Dev nD) (t : Fin cfg0.N) (j : (win0_1.xblock (grid0.coords t)).Idx) (p k : Fin 10000)
    (hp : p.val = 512 * t.val + (j 0).val) (hk : k.val = (j 1).val) : iblk m c 1 t j = adjA m c (ix2 p k) := by
  show V m c main_v0 (((cfg0.win 1).blk t).view.emb j) = V m c main_v0 (ix2 p k)
  refine congrArg _ (funext fun a => Fin.ext ?_)
  have h := idx_strip t
  match a with
  | ⟨0, _⟩ => show win0_1.index t 0 * 512 + 1 * (j 0).val = p.val; rw [h.1, hp]; omega
  | ⟨1, _⟩ => show win0_1.index t 1 * 10000 + 1 * (j 1).val = k.val; rw [h.2.1, hk]; omega

/-! ## What the scratch arrays hold from strip 1 on, and the result -/

/-- h = x·W0 + b0, as the first strip stores it. -/
def Hm (c : Dev nD) : Vec Ideal S10000x128 .f32 := k0_pay1 (F := Ideal) (xA m c) (w0A m c) (b0A m c)
/-- The gate sigmoid(x·Wg + bg), as the first strip stores it (10000 rows). -/
def Gm (c : Dev nD) : Vec Ideal S10000x128 .f32 := k0_pay2 (F := Ideal) (xA m c) (wgA m c) (bgA m c)
/-- Contents of the 10240-row scratch that hold the gate on the first 10000 rows. -/
def GateOK (c : Dev nD) (X : Vec Ideal S10240x128 .f32) : Prop :=
  ∀ (y : S10240x128.Idx) (y' : S10000x128.Idx), (y 0).val = (y' 0).val → (y 1).val = (y' 1).val → X y = Gm m c y'

/-- The layer's result, as a function of the arrays the region finds. -/
def Gout (c : Dev nD) : S10000x128.Idx → EReal := fun y =>
  Cert.GatedConv.out (xA m c) (adjA m c) (w0A m c) (fun u => b0A m c (ix2 (0 : Fin 1) u)) (wgA m c) (fun u => bgA m c (ix2 (0 : Fin 1) u)) (y 0) (y 1)

/-! ## The invariant, by position -/

/-- Before the first strip the scratch arrays hold anything; from then on, h and a gate-holding array. -/
def PhiS (c : Dev nD) : ℕ → sProp 𝕄
  | 0 => Pipeline.ΦA spec0 c
  | _ + 1 => iprop(iprop(owns (c : Thread nD τ) scH fullShare (Hm m c) ∗ (∃ X, ⌜GateOK m c X⌝ ∗ owns (c : Thread nD τ) scG fullShare X)) ∗ (∃ r, prngReg c r))

theorem PhiS_zero (c : Dev nD) : PhiS m c 0 = Pipeline.ΦA spec0 c := rfl
theorem PhiS_succ (c : Dev nD) (n : ℕ) :
    PhiS m c (n + 1) = iprop(iprop(owns (c : Thread nD τ) scH fullShare (Hm m c) ∗ (∃ X, ⌜GateOK m c X⌝ ∗ owns (c : Thread nD τ) scG fullShare X)) ∗ (∃ r, prngReg c r)) := rfl
theorem PhiS_pos (c : Dev nD) (n : ℕ) (hn : n ≠ 0) :
    PhiS m c n = iprop(iprop(owns (c : Thread nD τ) scH fullShare (Hm m c) ∗ (∃ X, ⌜GateOK m c X⌝ ∗ owns (c : Thread nD τ) scG fullShare X)) ∗ (∃ r, prngReg c r)) := by
  cases n with
  | zero => exact absurd rfl hn
  | succ n => rfl

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => iblk m c 2 t
    | ⟨3, _⟩ => iblk m c 3 t
    | ⟨4, _⟩ => iblk m c 4 t
    | ⟨5, _⟩ => iblk m c 5 t
    | ⟨6, _⟩ => win0_6.fill (grid0.coords t) (fun _ => (0 : EReal)) ((win0_6.blk t).view.read (Elt Ideal) (Gout m c))
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after0 (c : Dev nD) (t : Fin cfg0.N) : (dats m 0 c).after 0 t = iblk m c 0 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after1 (c : Dev nD) (t : Fin cfg0.N) :
    (dats m 0 c).after 1 t = win0_1.fill (grid0.coords t) (fun _ => (0 : EReal)) (iblk m c 1 t) := by dsimp only [dats]
theorem after6 (c : Dev nD) (t : Fin cfg0.N) :
    (dats m 0 c).after 6 t = win0_6.fill (grid0.coords t) (fun _ => (0 : EReal)) ((win0_6.blk t).view.read (Elt Ideal) (Gout m c)) := by dsimp only [dats]

/-! ## What the body finds in each staging buffer -/

theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The adjacency's buffer was just fetched: strip t on the rows inside the array, anything past them. -/
theorem before1 (c : Dev nD) (t : Fin cfg0.N) (d) :
    (dats m 0 c).before 1 t d = win0_1.fill (grid0.coords t) d (iblk m c 1 t) := by
  rw [(dats m 0 c).before_fetched 1 t (fetch0_1 t)]; unfold Dat.fetched Dat.blockOf iblk; rw [A_eq]

/-- The result's buffer is fresh at every strip: the strip before wrote it back. -/
theorem before6 (c : Dev nD) (t : Fin cfg0.N) (d) : (dats m 0 c).before 6 t d = d := by
  unfold Dat.before
  rw [fetch6 t, if_neg Bool.false_ne_true]
  by_cases ht : t.val = 0
  · rw [if_pos ht]
  · rw [if_neg ht]; dsimp only; rw [if_pos (flush0_6 _)]

end Cert.KernelIdeal.Body

end
-- ==== Proof.IdealBlock.lean ====
/-
  The valid rows of what the body stores into the result's staging buffer at strip t are rows 512·t … of the
  layer's result, and the strips' valid rows together are every row of the result.

  Entry (r, q) of the stored block is  g (r, q) · Σ_k A (r, k) · h (k, q)  with A the adjacency's staging buffer
  and g the 512 gate rows from row 512·t. When row 512·t + r is inside the arrays (r below the strip's cut),
  A (r, ·) is row 512·t + r of the adjacency and g (r, q) is the gate at (512·t + r, q), so the entry is the
  layer's result there. What the staging buffers hold past the arrays' end does not enter.
-/
import proofs.«100890_g63015760167423_cont_sun_m_150_20_alg».proof.Proof.IdealData

set_option maxRecDepth 16384

noncomputable section

open scoped BigOperators

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-- h at entry (k, q). -/
theorem Hm_apply (c : Dev nD) (k : Fin 10000) (q : Fin 128) :
    Hm m c (ix2 k q) = Cert.GatedConv.dense (xA m c) (w0A m c) (fun u => b0A m c (ix2 (0 : Fin 1) u)) k q := by
  unfold Hm Cert.GatedConv.dense; exact pay1_apply _ _ _ k q

/-- The gate at entry (p, q). -/
theorem Gm_apply (c : Dev nD) (p : Fin 10000) (q : Fin 128) :
    Gm m c (ix2 p q) = Ideal.logistic (Cert.GatedConv.dense (xA m c) (wgA m c) (fun u => bgA m c (ix2 (0 : Fin 1) u)) p q) := by
  unfold Gm Cert.GatedConv.dense; exact pay2_apply _ _ _ p q

/-- THE BLOCK: with the adjacency's buffer holding strip t on its rows inside the array (anything past them) and
    the gate scratch holding the gate on its first 10000 rows, the rows of the stored block that the write-back
    moves are the rows of the layer's result they are written to. -/
theorem block_value (c : Dev nD) (t : Fin cfg0.N) (d1 : S512x10000.Idx → EReal) (X : Vec Ideal S10240x128 .f32)
    (hX : GateOK m c X) :
    win0_6.cut (grid0.coords t) (k0_pay3 (F := Ideal) (win0_1.fill (grid0.coords t) d1 (iblk m c 1 t)) (Hm m c) (gateRows (grid0.coords t) X))
      = (win0_6.blk t).view.read (Elt Ideal) (Gout m c) := by
  funext j
  have hs := xs_strip t; have hi := idx_strip t; have ho := off_strip t
  have hj0 : (j 0).val < win0_6.xsize (grid0.coords t) 0 := (j 0).isLt
  have hj1 : (j 1).val < win0_6.xsize (grid0.coords t) 1 := (j 1).isLt
  have hp : 512 * t.val + (j 0).val < 10000 := by have := hs.2.2.2.1; omega
  have hr : (j 0).val < 512 := by have := hs.2.2.2.2.1; omega
  have hq : (j 1).val < 128 := by rw [hs.2.2.1] at hj1; exact hj1
  have e1 : win0_6.xinj (grid0.coords t) j = ix2 (⟨(j 0).val, hr⟩ : Fin 512) (⟨(j 1).val, hq⟩ : Fin 128) :=
    funext fun a => Fin.ext (by match a with | ⟨0, _⟩ => rfl | ⟨1, _⟩ => rfl)
  have e2 : (win0_6.blk t).view.emb j = ix2 (⟨512 * t.val + (j 0).val, hp⟩ : Fin 10000) (⟨(j 1).val, hq⟩ : Fin 128) :=
    funext fun a => Fin.ext (by
      match a with
      | ⟨0, _⟩ => show win0_6.index t 0 * 512 + 1 * (j 0).val = 512 * t.val + (j 0).val; rw [hi.2.2.1]; omega
      | ⟨1, _⟩ => show win0_6.index t 1 * 128 + 1 * (j 1).val = (j 1).val; rw [hi.2.2.2]; omega)
  show k0_pay3 (F := Ideal) _ (Hm m c) (gateRows (grid0.coords t) X) (win0_6.xinj (grid0.coords t) j)
      = Gout m c ((win0_6.blk t).view.emb j)
  rw [e1, e2, pay3_apply]
  -- the gate row read at row 512·t + r of the scratch
  have eg : gateRows (grid0.coords t) X (ix2 (⟨(j 0).val, hr⟩ : Fin 512) (⟨(j 1).val, hq⟩ : Fin 128))
      = Gm m c (ix2 (⟨512 * t.val + (j 0).val, hp⟩ : Fin 10000) (⟨(j 1).val, hq⟩ : Fin 128)) := by
    unfold gateRows
    refine hX _ _ ?_ ?_
    · show k0_off1 (grid0.coords t) 0 + 1 * (j 0).val = 512 * t.val + (j 0).val; rw [ho.1]; omega
    · show k0_off1 (grid0.coords t) 1 + 1 * (j 1).val = (j 1).val; rw [ho.2]; omega
  -- row r of the staging buffer is row 512·t + r of the adjacency
  have eA : ∀ k : Fin 10000, win0_1.fill (grid0.coords t) d1 (iblk m c 1 t) (ix2 (⟨(j 0).val, hr⟩ : Fin 512) k)
      = adjA m c (ix2 (⟨512 * t.val + (j 0).val, hp⟩ : Fin 10000) k) := fun k => by
    have hmv : win0_1.moved (grid0.coords t) (ix2 (⟨(j 0).val, hr⟩ : Fin 512) k) = true :=
      (win0_1.moved_iff _ _).mpr fun a => by
        match a with
        | ⟨0, _⟩ => show (j 0).val < win0_1.xsize (grid0.coords t) 0; rw [hs.1]; exact hj0
        | ⟨1, _⟩ => show k.val < win0_1.xsize (grid0.coords t) 1; rw [hs.2.1]; exact k.isLt
    unfold Window.fill
    rw [dif_pos hmv]
    exact iblk1_apply m c t _ _ k rfl rfl
  rw [eg, Gm_apply]
  unfold Gout Cert.GatedConv.out
  refine congrArg₂ (· * ·) rfl (Finset.sum_congr rfl fun k _ => ?_)
  rw [eA k, Hm_apply]

/-- Every row of the result lies in the part of some strip inside the array: row y of strip y / 512. -/
theorem cover (y : S10000x128.Idx) : ∃ t : Fin cfg0.N, (cfg0.win 6).flush t = true ∧ y ∈ ((cfg0.win 6).blk t).view.set := by
  have hy : (y 0).val < 10000 := (y 0).isLt
  have hN : cfg0.N = 20 := N_0
  have ht : (y 0).val / 512 < cfg0.N := by rw [hN]; omega
  refine ⟨⟨(y 0).val / 512, ht⟩, flush0_6 _, ?_⟩
  show y ∈ ((View.whole main_v3).slice (win0_6.rect ⟨(y 0).val / 512, ht⟩)).set
  rw [View.set_slice_whole, Rect.mem_set_unit]
  intro a
  have hs := xs_strip ⟨(y 0).val / 512, ht⟩; have hi := idx_strip ⟨(y 0).val / 512, ht⟩
  match a with
  | ⟨0, _⟩ =>
    show win0_6.index ⟨(y 0).val / 512, ht⟩ 0 * 512 ≤ (y 0).val
      ∧ (y 0).val < win0_6.index ⟨(y 0).val / 512, ht⟩ 0 * 512 + win0_6.xsize (grid0.coords ⟨(y 0).val / 512, ht⟩) 0
    rw [hi.2.2.1]
    have h1 := hs.2.2.2.1; have h2 := hs.2.2.2.2.2
    dsimp only at h1 h2 ⊢
    omega
  | ⟨1, _⟩ =>
    show win0_6.index ⟨(y 0).val / 512, ht⟩ 1 * 128 ≤ (y 1).val
      ∧ (y 1).val < win0_6.index ⟨(y 0).val / 512, ht⟩ 1 * 128 + win0_6.xsize (grid0.coords ⟨(y 0).val / 512, ht⟩) 1
    rw [hi.2.2.2, hs.2.2.1]
    have h128 : (y 1).val < 128 := (y 1).isLt
    omega

/-- THE RESULT ARRAY after the run: each strip's write-back writes its rows of G, and the strips cover the array. -/
theorem final (c : Dev nD) : (dats m 0 c).arrAt 6 cfg0.N = Gout m c :=
  (dats m 0 c).arrAt_eq_of_cover 6 (Gout m c)
    (fun t _ => by
      show win0_6.cut (grid0.coords t) ((dats m 0 c).after 6 t) = _
      rw [after6]; exact win0_6.cut_fill _ _ _)
    cover

end Cert.KernelIdeal.Body

end
-- ==== Proof.IdealFrame.lean ====
/-
  The idealized kernel runs, leaves its arguments alone, and ends with the layer's result in its result array.

  At every strip the body is handed the inputs' staging buffers at their blocks (the adjacency's at strip t on the
  rows inside the array), the result's buffer at anything, and the two scratch arrays as the invariant has them:
  at anything before the first strip, at h and a gate-holding array afterwards. It leaves the inputs' buffers as
  they were, h and a gate-holding array in the scratch arrays, and in the result's buffer a block whose rows
  inside the array are the layer's rows 512·t … (the block-value lemma); the pipeline writes exactly those back.
-/
import proofs.«100890_g63015760167423_cont_sun_m_150_20_alg».proof.Proof.IdealBlock

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.Pipeline (BodyObligationLoose)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- A whole memref whose buffer holds raw contents reading `X` is owned at `X`. -/
theorem owns_of_read {s : Shape} (c : Dev nD) (M : Memref sig .tc .vmem s .f32) (g : M.view.ty.Contents (Elt Ideal))
    (X : s.Idx → Elt Ideal .f32) (h : M.view.read (Elt Ideal) g = X) :
    (M.view.loc (c : Thread nD τ) ↦[M.view.set]{fullShare} g : sProp 𝕄) ⊢ owns (c : Thread nD τ) M fullShare X := by
  subst h; unfold owns; iintro H; iexists g; isplitr; · ipureintro; rfl
  iexact H

/-- A block whose moved rows are G's rows, filled out with itself, is itself. -/
theorem out_fill (c : Dev nD) (t : Fin cfg0.N) (d1 : S512x10000.Idx → EReal) (Xg : Vec Ideal S10240x128 .f32) (hX : GateOK m c Xg) :
    win0_6.fill (grid0.coords t) (k0_pay3 (F := Ideal) (win0_1.fill (grid0.coords t) d1 (iblk m c 1 t)) (Hm m c) (gateRows (grid0.coords t) Xg))
        ((win0_6.blk t).view.read (Elt Ideal) (Gout m c))
      = k0_pay3 (F := Ideal) (win0_1.fill (grid0.coords t) d1 (iblk m c 1 t)) (Hm m c) (gateRows (grid0.coords t) Xg) := by
  rw [← block_value m c t d1 Xg hX]; exact win0_6.fill_cut _ _

/-- What the body is called with at strip t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns: the two windows whose blocks may overhang their arrays are described on the moved rows only. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare (win0_1.fill (grid0.coords t) d (win0_1.cut (grid0.coords t) ((dats m 0 c).after 1 t))))
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ d, owns (c : Thread nD τ) (ms6 t) fullShare (win0_6.fill (grid0.coords t) d (win0_6.cut (grid0.coords t) ((dats m 0 c).after 6 t)))))

set_option maxHeartbeats 800000 in
/-- The body at any strip. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, after0, after2, after3, after4, after5]
  rw [show (dats m 0 c).owesAt () t.succ = (dats m 0 c).owesAt () t.castSucc from rfl, Phi_succ, PhiS_succ, Phi_castSucc,
    after1, after6, Window.cut_fill, Window.cut_fill]
  simp only [iblk0_eq, iblk2_eq, iblk3_eq, iblk4_eq, iblk5_eq]
  by_cases h0 : t.val = 0
  · -- the first strip: the scratch arrays hold anything
    have hc0 : cond0 (grid0.coords t) := (hcond0 t).mpr h0
    rw [show PhiS m c t.val = Pipeline.ΦA spec0 c from by rw [h0]; rfl, PhiA_eq]
    iintro ⟨⟨⟨⟨%d8, HS0⟩, ⟨%d9, HS1⟩⟩, Hg⟩, Ho, ⟨%e0, H0⟩, ⟨%d1, H1⟩, ⟨%e2, H2⟩, ⟨%e3, H3⟩, ⟨%e4, H4⟩, ⟨%e5, H5⟩, ⟨%d6, H6⟩⟩
    have eH : ∀ f, scH.view.read (Elt Ideal) (scH.view.writes (Elt Ideal) f (runFirst c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9).2.1) = Hm m c :=
      fun f => first_h c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9 f
    have eG : ∀ g, GateOK m c (scG.view.read (Elt Ideal) (scG.view.writes (Elt Ideal) g (runFirst c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9).2.2.1)) :=
      fun g y y' hy0 hy1 => first_gate c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9 g y y' hy0 hy1
    have eO : ∀ f, (ms6 t).view.read (Elt Ideal) ((ms6 t).view.writes (Elt Ideal) f (runFirst c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9).1)
        = k0_pay3 (F := Ideal) (win0_1.fill (grid0.coords t) d1 (iblk m c 1 t)) (Hm m c) (gateRows (grid0.coords t)
            (scG.view.read (Elt Ideal) (scG.view.writes (Elt Ideal) ((Memref.isWhole_whole cc0_scratch1).unread d9) (runFirst c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9).2.2.1))) :=
      fun f => first_out c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9 f
    iapply ((runFirst c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f7, H7⟩, ⟨%f8, H8⟩, ⟨%f9, %hf9, H9⟩⟩
    obtain rfl := (Memref.isWhole_whole cc0_scratch1).eq_unread hf9
    isplitl [H8 H9 Hg]
    · isplitl [H8 H9]
      · isplitl [H8]
        · iapply (owns_of_read c scH _ _ (eH f8)); iexact H8
        · iexists (scG.view.read (Elt Ideal) (scG.view.writes (Elt Ideal) ((Memref.isWhole_whole cc0_scratch1).unread d9) (runFirst c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9).2.2.1)); isplitr; · ipureintro; exact eG ((Memref.isWhole_whole cc0_scratch1).unread d9)
          iapply (owns_of_read c scG _ _ rfl); iexact H9
      iexact Hg
    isplitl [Ho]; · iexact Ho
    isplitl [H0]; · iexact H0
    isplitl [H1]; · iexists d1; iexact H1
    isplitl [H2]; · iexact H2
    isplitl [H3]; · iexact H3
    isplitl [H4]; · iexact H4
    isplitl [H5]; · iexact H5
    iexists (k0_pay3 (F := Ideal) (win0_1.fill (grid0.coords t) d1 (iblk m c 1 t)) (Hm m c) (gateRows (grid0.coords t) (scG.view.read (Elt Ideal) (scG.view.writes (Elt Ideal) ((Memref.isWhole_whole cc0_scratch1).unread d9) (runFirst c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9).2.2.1))))
    rw [out_fill m c t d1 (scG.view.read (Elt Ideal) (scG.view.writes (Elt Ideal) ((Memref.isWhole_whole cc0_scratch1).unread d9) (runFirst c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (xA m c) (win0_1.fill (grid0.coords t) d1 (iblk m c 1 t)) (w0A m c) (b0A m c) (wgA m c) (bgA m c) d8 d9).2.2.1)) (eG ((Memref.isWhole_whole cc0_scratch1).unread d9))]
    iapply (owns_of_read c (ms6 t) _ _ (eO f7)); iexact H7
  · -- a later strip: the scratch arrays hold h and a gate-holding array
    have hc0 : ¬cond0 (grid0.coords t) := fun h => h0 ((hcond0 t).mp h)
    rw [PhiS_pos m c _ h0]
    iintro ⟨⟨⟨HS0, ⟨%Xg, %hXg, HS1⟩⟩, Hg⟩, Ho, ⟨%e0, H0⟩, ⟨%d1, H1⟩, ⟨%e2, H2⟩, ⟨%e3, H3⟩, ⟨%e4, H4⟩, ⟨%e5, H5⟩, ⟨%d6, H6⟩⟩
    have eO : ∀ f, (ms6 t).view.read (Elt Ideal) ((ms6 t).view.writes (Elt Ideal) f (runLater c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (win0_1.fill (grid0.coords t) d1 (iblk m c 1 t)) (Hm m c) Xg).1)
        = k0_pay3 (F := Ideal) (win0_1.fill (grid0.coords t) d1 (iblk m c 1 t)) (Hm m c) (gateRows (grid0.coords t) Xg) :=
      fun f => later_out c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (win0_1.fill (grid0.coords t) d1 (iblk m c 1 t)) (Hm m c) Xg f
    iapply ((runLater c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scG (Memref.isWhole_whole _) hc0 (win0_1.fill (grid0.coords t) d1 (iblk m c 1 t)) (Hm m c) Xg).2 (xA m c) (w0A m c) (b0A m c) (wgA m c) (bgA m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f7, H7⟩, H8, H9⟩
    isplitl [H8 H9 Hg]
    · isplitl [H8 H9]
      · isplitl [H8]
        · iexact H8
        · iexists Xg; isplitr; · ipureintro; exact hXg
          iexact H9
      iexact Hg
    isplitl [Ho]; · iexact Ho
    isplitl [H0]; · iexact H0
    isplitl [H1]; · iexists d1; iexact H1
    isplitl [H2]; · iexact H2
    isplitl [H3]; · iexact H3
    isplitl [H4]; · iexact H4
    isplitl [H5]; · iexact H5
    iexists (k0_pay3 (F := Ideal) (win0_1.fill (grid0.coords t) d1 (iblk m c 1 t)) (Hm m c) (gateRows (grid0.coords t) Xg))
    rw [out_fill m c t d1 Xg hXg]
    iapply (owns_of_read c (ms6 t) _ _ (eO f7)); iexact H7

/-- The library's body obligation, at every strip. -/
theorem body_obligation (c : Dev nD) : BodyObligationLoose (dats m 0 c) (defs₀ (F := Ideal)) Variants.none () Set.univ := fun t => by
  rw [bigSep_W0, bigSep_W0]
  exact sound_body m c t

/-- What the launch hands the region is the invariant before the first strip. -/
theorem hin (c : Dev nD) : Pipeline.ΦA spec0 c ⊢ (dats m 0 c).Φ 0 := by
  rw [show (dats m 0 c).Φ 0 = PhiS m c 0 from rfl, PhiS_zero]

/-- After the last strip the scratch arrays' contents are forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 20 from N_0]; omega), PhiA_eq]
  iintro ⟨⟨HS0, ⟨%Xg, %hXg, HS1⟩⟩, Hg⟩
  isplitl [HS0 HS1]
  · isplitl [HS0]
    · iexists _; iexact HS0
    · iexists _; iexact HS1
  iexact Hg

set_option backward.isDefEq.respectTransparency.types false in
/-- Every weakly fair execution of @main terminates without a fault, with every array of the pipeline at what the
    library computes from the proof data and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame claim of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The run with the result array named: it ends holding the layer's result `Gout`, the arguments unchanged
    (an input window's array is never written; the adjacency and the bias vectors bypass the region). -/
theorem run_all : θ_run defs (onTc (τ := τ) (main (F := Ideal))) ⟨m, fun _ => 0, ρ⟩ (fun r => ∀ c : Dev nD,
      r.2.mem ((c.tc : Thread nD τ).loc main_v3) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Body

end
-- ==== Proof.RefIsSpec.lean ====
/-
  The reference computes the layer's function: its result term, read at entry (p, q), is
  `Cert.GatedConv.out` of the argument arrays.

  The reference spells the gate as 1 / (1 + exp (−y)) with y = x·Wg + bg, each bias taken from a vector to a
  1 × 128 row and repeated down the rows, and h = x·W0 + b0 likewise; each product is a general dot product
  with one contracted axis, which on the extended reals is the plain finite sum. The adjacency enters as
  the 1 × 10000 × 10000 argument cast to 10000 × 10000; the cast is left closed, the kernel applies the same.
-/
import proofs.«100890_g63015760167423_cont_sun_m_150_20_alg».proof.Proof.Gen.ReferenceIdeal.Read
import proofs.«100890_g63015760167423_cont_sun_m_150_20_alg».proof.Proof.Spec
import proofs.«100890_g63015760167423_cont_sun_m_150_20_alg».proof.Proof.LibRowPerceptron

noncomputable section

open scoped BigOperators

namespace Cert.ReferenceIdeal.RefValue

open Cert.ReferenceIdeal Cert.ReferenceIdeal.Gen Cert.ReferenceIdeal.Value Cert.ReferenceIdeal.Read
open Idealize.ShloMosaic Idealize.ShloMosaic.ValueIdx Idealize.ShloMosaic.TcCoe

/-- The reference run's result, as a function of the six argument arrays' contents. -/
def result (x0 : FVec Ideal S10000x128 .f32) (x1 : FVec Ideal S1x10000x10000 .f32)
    (x2 : FVec Ideal S128x128 .f32) (x3 : FVec Ideal S128 .f32)
    (x4 : FVec Ideal S128x128 .f32) (x5 : FVec Ideal S128 .f32) :
    FVec Ideal S10000x128 .f32 :=
  mulf (F := Ideal) (Host.divf (broadcastInDim S10000x128 ![] bcast_S_S10000x128 (constant (F := Ideal) S_ .f32 0x3F800000#32)) (addf (broadcastInDim S10000x128 ![] bcast_S_S10000x128 (constant (F := Ideal) S_ .f32 0x3F800000#32)) (Host.exp (Host.negf (addf (Host.dotGeneral dot_S10000x128_S128x128_S10000x128_1_0_0_1_n_n none x0 x4) (broadcastInDim S10000x128 ![0, 1] bcast_S1x128_S10000x128_0_1 (broadcastInDim S1x128 ![1] bcast_S128_S1x128_1 x5))))))) (Host.dotGeneral dot_S10000x10000_S10000x128_S10000x128_1_0_0_1_n_n none (shapeCast _ x1 shapeCasts_S1x10000x10000_S10000x10000) (addf (Host.dotGeneral dot_S10000x128_S128x128_S10000x128_1_0_0_1_n_n none x0 x2) (broadcastInDim S10000x128 ![0, 1] bcast_S1x128_S10000x128_0_1 (broadcastInDim S1x128 ![1] bcast_S128_S1x128_1 x3))))

/-- At entry (p, q) the reference's result is the layer's function of the arguments. -/
theorem result_apply (x0 : FVec Ideal S10000x128 .f32) (x1 : FVec Ideal S1x10000x10000 .f32)
    (x2 : FVec Ideal S128x128 .f32) (x3 : FVec Ideal S128 .f32)
    (x4 : FVec Ideal S128x128 .f32) (x5 : FVec Ideal S128 .f32)
    (p : Fin 10000) (q : Fin 128) :
    result x0 x1 x2 x3 x4 x5 (ix2 p q)
      = Cert.GatedConv.out x0 (shapeCast S10000x10000 x1 shapeCasts_S1x10000x10000_S10000x10000) x2 (fun u => x3 (ix1 u)) x4 (fun u => x5 (ix1 u)) p q := by
  unfold result
  show Host.divf (F := Ideal) _ _ (ix2 p q) * Host.dotGeneral (F := Ideal) dot_S10000x10000_S10000x128_S10000x128_1_0_0_1_n_n none _ _ (ix2 p q) = _
  rw [Cert.RowPerceptron.host_logistic_apply]
  show Ideal.logistic (FloatOps.dotGeneral (F := Ideal) dot_S10000x128_S128x128_S10000x128_1_0_0_1_n_n none .single x0 x4 (ix2 p q)
      + broadcastInDim S10000x128 ![0, 1] bcast_S1x128_S10000x128_0_1 (broadcastInDim S1x128 ![1] bcast_S128_S1x128_1 x5) (ix2 p q))
    * FloatOps.dotGeneral (F := Ideal) dot_S10000x10000_S10000x128_S10000x128_1_0_0_1_n_n none .single _ _ (ix2 p q) = _
  rw [Cert.RowsProduct.dotGeneral_rows_apply dot_S10000x128_S128x128_S10000x128_1_0_0_1_n_n none .single rfl rfl
      lhs_main_v0_0 lhs_main_v0_1 rhs_main_v0_0 rhs_main_v0_1,
    Cert.RowPerceptron.vecBias_apply,
    Cert.RowsProduct.dotGeneral_rows_apply dot_S10000x10000_S10000x128_S10000x128_1_0_0_1_n_n none .single rfl rfl
      lhs_main_v15_0 lhs_main_v15_1 rhs_main_v15_0 rhs_main_v15_1]
  unfold Cert.GatedConv.out Cert.GatedConv.dense
  refine congrArg (_ * ·) (Finset.sum_congr rfl fun k _ => ?_)
  show _ * (FloatOps.dotGeneral (F := Ideal) dot_S10000x128_S128x128_S10000x128_1_0_0_1_n_n none .single x0 x2 (ix2 k q)
      + broadcastInDim S10000x128 ![0, 1] bcast_S1x128_S10000x128_0_1 (broadcastInDim S1x128 ![1] bcast_S128_S1x128_1 x3) (ix2 k q)) = _
  rw [Cert.RowsProduct.dotGeneral_rows_apply dot_S10000x128_S128x128_S10000x128_1_0_0_1_n_n none .single rfl rfl
      lhs_main_v0_0 lhs_main_v0_1 rhs_main_v0_0 rhs_main_v0_1,
    Cert.RowPerceptron.vecBias_apply]

end Cert.ReferenceIdeal.RefValue

end
-- ==== Proof.Bridge.lean ====
/-
  The two idealized programs compute one function.

  The idealized kernel's result array ends at the layer's function of the arrays its region finds: x, W0, Wg as
  launched, and the adjacency and the two bias vectors through the host reshapes that precede the region
  (1 × 10000 × 10000 → 10000 × 10000, and 128 → 1 × 128). The reference's run ends at its own composed term,
  which at every entry is the same function of the launch arrays (it casts the adjacency the same way and reads
  the bias vectors directly). A bias row read at (0, u) is the vector's entry u.
-/
import proofs.«100890_g63015760167423_cont_sun_m_150_20_alg».proof.Proof.IdealFrame
import proofs.«100890_g63015760167423_cont_sun_m_150_20_alg».proof.Proof.RefIsSpec
import Idealize.ShloMosaic.Lib.ValueLayout
import Idealize.ShloMosaic.Lib.StableHlo.Run

set_option maxRecDepth 16384

noncomputable section

namespace Cert.Bridge

open Idealize.ShloMosaic Idealize.ShloMosaic.TcCoe Idealize.SL.Sem Idealize.ShloMosaic.StableHlo
open Idealize.ShloMosaic.ValueIdx
open Cert.KernelIdeal Cert.KernelIdeal.Gen Cert.KernelIdeal.Body

variable (m : (ℓ : Loc nD τ sig) → Buf (Elt Ideal) ℓ)

/-- The adjacency as the region finds it: the argument cast to two axes. -/
theorem adj_eq (c : Dev nD) :
    (V m c main_v0 : S10000x10000.Idx → EReal)
      = shapeCast S10000x10000 (m ((c : Thread nD τ).loc main_arg1)) Facts₀.shapeCasts_S1x10000x10000_S10000x10000 := by
  dsimp only [Gen.V, Gen.hostOps0]; after_results; rfl

/-- The two bias rows as the region finds them: the vectors cast to one row. -/
theorem b0_eq (c : Dev nD) :
    (V m c main_v1 : S1x128.Idx → EReal) = shapeCast S1x128 (m ((c : Thread nD τ).loc main_arg3)) Facts₀.shapeCasts_S128_S1x128 := by
  dsimp only [Gen.V, Gen.hostOps0]; after_results; rfl
theorem bg_eq (c : Dev nD) :
    (V m c main_v2 : S1x128.Idx → EReal) = shapeCast S1x128 (m ((c : Thread nD τ).loc main_arg5)) Facts₀.shapeCasts_S128_S1x128 := by
  dsimp only [Gen.V, Gen.hostOps0]; after_results; rfl

/-- The kernel's result is the reference's result term of the kernel's own argument arrays. -/
theorem Gout_eq (c : Dev nD) :
    Gout m c = Cert.ReferenceIdeal.RefValue.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  funext y
  obtain ⟨p, q, rfl⟩ : ∃ (p : Fin 10000) (q : Fin 128), y = ix2 p q := ⟨y 0, y 1, eq_ix2 y⟩
  rw [Cert.ReferenceIdeal.RefValue.result_apply]
  have hx : xA m c = m ((c : Thread nD τ).loc main_arg0) := V_main_arg0 m c
  have hw0 : w0A m c = m ((c : Thread nD τ).loc main_arg2) := V_main_arg2 m c
  have hwg : wgA m c = m ((c : Thread nD τ).loc main_arg4) := V_main_arg4 m c
  have hadj : adjA m c = shapeCast S10000x10000 (m ((c : Thread nD τ).loc main_arg1)) Facts₀.shapeCasts_S1x10000x10000_S10000x10000 := adj_eq m c
  have hb0 : (fun u : Fin 128 => b0A m c (ix2 (0 : Fin 1) u)) = fun u => m ((c : Thread nD τ).loc main_arg3) (ix1 u) :=
    funext fun u => by
      rw [show b0A m c = shapeCast S1x128 (m ((c : Thread nD τ).loc main_arg3)) Facts₀.shapeCasts_S128_S1x128 from b0_eq m c]
      exact shapeCast_a_1a_apply _ _ 0 u
  have hbg : (fun u : Fin 128 => bgA m c (ix2 (0 : Fin 1) u)) = fun u => m ((c : Thread nD τ).loc main_arg5) (ix1 u) :=
    funext fun u => by
      rw [show bgA m c = shapeCast S1x128 (m ((c : Thread nD τ).loc main_arg5)) Facts₀.shapeCasts_S128_S1x128 from bg_eq m c]
      exact shapeCast_a_1a_apply _ _ 0 u
  unfold Gout
  rw [hx, hw0, hwg, hadj, hb0, hbg]

end Cert.Bridge

end
-- ==== Proof.lean ====
/-
  A gated graph-convolution layer, fused into one kernel, against its plain reference.

      gate = sigmoid (x·Wg + bg),   h = x·W0 + b0,   out = gate ⊙ (adj · h)

  over x : 10000 × 128, adj : 10000 × 10000, W0, Wg : 128 × 128. The kernel walks the adjacency in 20 strips of
  512 rows. At the first strip it computes h and the gate once into two scratch arrays (the gate's padded to the
  strips' 10240 rows); at every strip it multiplies the strip by h and scales the product by the strip's gate
  rows. 512 does not divide 10000: the last strip's block overhangs the arrays by 240 rows, whose staging rows
  hold values nothing names and whose results are never written back.

  The claims: each program runs to the end without a fault and leaves its arguments unchanged; the idealized
  kernel is the kernel's own text read on the extended reals (no rewrite was made, nothing to preserve); and
  on the extended reals the kernel's result array and the reference's are equal entry by entry — both are
  gate (p, q) · Σ_k adj (p, k) · h (k, q), each product a plain finite sum, the kernel's logistic the
  reference's 1 / (1 + exp (−y)). No sum is rearranged, so no input need be finite.

  The kernel's frame at the word level names no contents (Proof/BitsFrame); the idealized kernel's run names the
  result array (Proof/IdealFrame over Proof/IdealData, IdealBlock); the reference's run is the generated one,
  read at an entry in Proof/RefIsSpec; Proof/Bridge joins the two.
-/
import proofs.«100890_g63015760167423_cont_sun_m_150_20_alg».proof.Defs
import proofs.«100890_g63015760167423_cont_sun_m_150_20_alg».proof.Proof.Gen.Kernel
import proofs.«100890_g63015760167423_cont_sun_m_150_20_alg».proof.Proof.Gen.KernelIdeal
import proofs.«100890_g63015760167423_cont_sun_m_150_20_alg».proof.Proof.Gen.ReferenceIdeal
import proofs.«100890_g63015760167423_cont_sun_m_150_20_alg».proof.Proof.Gen.Pre_finite_inputs
import proofs.«100890_g63015760167423_cont_sun_m_150_20_alg».proof.Proof.Gen.ReferenceIdeal.Read
import proofs.«100890_g63015760167423_cont_sun_m_150_20_alg».proof.Proof.BitsFrame
import proofs.«100890_g63015760167423_cont_sun_m_150_20_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arrays that agree, the idealized kernel ends with the layer's result in its result array and the reference
    ends with its composed term, which is the same function of the same arrays. -/
theorem algebraic : Cert.algebraic_KernelIdeal_ReferenceIdeal := by
  intro m ρ m' ρ' _ hagree
  refine ⟨fun c => Cert.KernelIdeal.Body.Gout m c, Cert.KernelIdeal.Body.run_all m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Body.Gout m c
  rw [Cert.Bridge.Gout_eq m c, ← (hagree c).1, ← (hagree c).2.1, ← (hagree c).2.2.1, ← (hagree c).2.2.2.1,
    ← (hagree c).2.2.2.2.1, ← (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
